-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v127)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v127) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x45 : Shape := ⟨2, ![64, 45]⟩
abbrev S45 : Shape := ⟨1, ![45]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x45 : S_.BroadcastsInDim S64x45 (![] : Fin 0 → Fin S64x45.rank)
  reducesTo_S64x45_S_d0_1 : S64x45.ReducesTo [0, 1] S_
  bcast_S_S45 : S_.BroadcastsInDim S45 (![] : Fin 0 → Fin S45.rank)
  reducesTo_S45_S_d0 : S45.ReducesTo [0] S_

variable [Facts]

def fn_part2 {F : FTy → Type} [FloatOps F] (main_arg9 : FVec F S64x45 .f32) (main_arg10 : FVec F S45 .f32) (main_v33 : IVec S_ 1) : IVec S_ 1 :=
  let main_v34 : FVec F S64x45 .f32 := Host.absf main_arg9
  let main_cst_12 : FVec F S_ .f32 := constant S_ .f32 0x7F800000#32
  let main_v35 : FVec F S64x45 .f32 := broadcastInDim S64x45 ![] bcast_S_S64x45 main_cst_12
  let main_v36 : IVec S64x45 1 := cmpf .olt main_v34 main_v35
  let main_c_13 : IVec S_ 1 := constantI S_ 1 1#1
  let main_v37 : IVec S_ 1 := (fun x v => Host.reduce IntOp.andi x v reducesTo_S64x45_S_d0_1 h_S_) main_v36 main_c_13
  let main_v38 : IVec S_ 1 := andi main_v33 main_v37
  let main_v39 : FVec F S45 .f32 := Host.absf main_arg10
  let main_cst_14 : FVec F S_ .f32 := constant S_ .f32 0x7F800000#32
  let main_v40 : FVec F S45 .f32 := broadcastInDim S45 ![] bcast_S_S45 main_cst_14
  let main_v41 : IVec S45 1 := cmpf .olt main_v39 main_v40
  let main_c_15 : IVec S_ 1 := constantI S_ 1 1#1
  let main_v42 : IVec S_ 1 := (fun x v => Host.reduce IntOp.andi x v reducesTo_S45_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x45 .f32) (main_arg10 : FVec F S45 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S2x1600000 32) (main_arg2 : IVec S100000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x45 .f32) (main_arg10 : FVec F S45 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x45 : Shape := ⟨2, ![64, 45]⟩
abbrev S45 : Shape := ⟨1, ![45]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x64 : Shape := ⟨2, ![1, 64]⟩
abbrev S5000x64 : Shape := ⟨2, ![5000, 64]⟩
abbrev S1600000x64 : Shape := ⟨2, ![1600000, 64]⟩
abbrev S100000x1 : Shape := ⟨2, ![100000, 1]⟩
abbrev S5000x1 : Shape := ⟨2, ![5000, 1]⟩
abbrev S256x64 : Shape := ⟨2, ![256, 64]⟩
abbrev S256 : Shape := ⟨1, ![256]⟩
abbrev S256x1 : Shape := ⟨2, ![256, 1]⟩
abbrev S1x45 : Shape := ⟨2, ![1, 45]⟩
abbrev S256x45 : Shape := ⟨2, ![256, 45]⟩

abbrev nBuf : Space → Nat
  | .hbm => 170
  | .vmem => 49
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x45, .f32⟩
  | 10 => ⟨S45, .f32⟩
  | 11 => ⟨S1x1600000, .i32⟩
  | 12 => ⟨S1600000, .i32⟩
  | 13 => ⟨S1x1600000, .i32⟩
  | 14 => ⟨S1600000, .i32⟩
  | 15 => ⟨S_, .f32⟩
  | 16 => ⟨S1600000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S100000, .f32⟩
  | 26 => ⟨S_, .f32⟩
  | 27 => ⟨S64, .f32⟩
  | 28 => ⟨S1x64, .f32⟩
  | 29 => ⟨S100000x64, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x64, .f32⟩
  | 58 => ⟨S1600000x1, .f32⟩
  | 59 => ⟨S1600000x64, .f32⟩
  | 60 => ⟨S1600000x64, .f32⟩
  | 61 => ⟨S_, .f32⟩
  | 62 => ⟨S100000x64, .f32⟩
  | 63 => ⟨S1600000x1, .i32⟩
  | 64 => ⟨S100000x64, .f32⟩
  | 65 => ⟨S1x64, .f32⟩
  | 66 => ⟨S100000x1, .f32⟩
  | 67 => ⟨S100000x64, .f32⟩
  | 68 => ⟨S_, .f32⟩
  | 69 => ⟨S64, .f32⟩
  | 70 => ⟨S1x64, .f32⟩
  | 71 => ⟨S100000x64, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000, .f32⟩
  | 90 => ⟨S1600000, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x64, .f32⟩
  | 100 => ⟨S1600000x1, .f32⟩
  | 101 => ⟨S1600000x64, .f32⟩
  | 102 => ⟨S1600000x64, .f32⟩
  | 103 => ⟨S_, .f32⟩
  | 104 => ⟨S100000x64, .f32⟩
  | 105 => ⟨S1600000x1, .i32⟩
  | 106 => ⟨S100000x64, .f32⟩
  | 107 => ⟨S1x64, .f32⟩
  | 108 => ⟨S100000x1, .f32⟩
  | 109 => ⟨S100000x64, .f32⟩
  | 110 => ⟨S_, .f32⟩
  | 111 => ⟨S64, .f32⟩
  | 112 => ⟨S1x64, .f32⟩
  | 113 => ⟨S100000x64, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x64, .f32⟩

abbrev hbmTy0_1 (i : Nat) : BufTy := match i % 128 with
  | 0 => ⟨S1600000, .i32⟩
  | 1 => ⟨S1600000, .i32⟩
  | 2 => ⟨S1600000x1, .i32⟩
  | 3 => ⟨S1600000, .f32⟩
  | 4 => ⟨S1600000, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000x64, .f32⟩
  | 14 => ⟨S1600000x1, .f32⟩
  | 15 => ⟨S1600000x64, .f32⟩
  | 16 => ⟨S1600000x64, .f32⟩
  | 17 => ⟨S_, .f32⟩
  | 18 => ⟨S100000x64, .f32⟩
  | 19 => ⟨S1600000x1, .i32⟩
  | 20 => ⟨S100000x64, .f32⟩
  | 21 => ⟨S1x64, .f32⟩
  | 22 => ⟨S100000x1, .f32⟩
  | 23 => ⟨S100000x64, .f32⟩
  | 24 => ⟨S_, .f32⟩
  | 25 => ⟨S256x64, .f32⟩
  | 26 => ⟨S100000x1, .i32⟩
  | 27 => ⟨S256x64, .f32⟩
  | 28 => ⟨S_, .f32⟩
  | 29 => ⟨S100000, .f32⟩
  | 30 => ⟨S_, .f32⟩
  | 31 => ⟨S256, .f32⟩
  | 32 => ⟨S100000x1, .i32⟩
  | 33 => ⟨S256, .f32⟩
  | 34 => ⟨S_, .f32⟩
  | 35 => ⟨S256, .f32⟩
  | 36 => ⟨S256, .f32⟩
  | 37 => ⟨S256x1, .f32⟩
  | 38 => ⟨S256x64, .f32⟩
  | 39 => ⟨S256x64, .f32⟩
  | 40 => ⟨S1x45, .f32⟩
  | 41 => ⟨S256x45, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x1, .f32⟩
  | .local _ .vmem, ⟨11, _⟩ => ⟨S5000x1, .f32⟩
  | .local _ .vmem, ⟨12, _⟩ => ⟨S1x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S1x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x1, .f32⟩
  | .local _ .vmem, ⟨26, _⟩ => ⟨S5000x1, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S64x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x1, .f32⟩
  | .local _ .vmem, ⟨41, _⟩ => ⟨S5000x1, .f32⟩
  | .local _ .vmem, ⟨42, _⟩ => ⟨S1x64, .f32⟩
  | .local _ .vmem, ⟨43, _⟩ => ⟨S5000x64, .f32⟩
  | .local _ .vmem, ⟨44, _⟩ => ⟨S5000x64, .f32⟩
  | .local _ .vmem, ⟨45, _⟩ => ⟨S256x64, .f32⟩
  | .local _ .vmem, ⟨46, _⟩ => ⟨S64x45, .f32⟩
  | .local _ .vmem, ⟨47, _⟩ => ⟨S1x45, .f32⟩
  | .local _ .vmem, ⟨48, _⟩ => ⟨S256x45, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_c_11 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_12 : Ref sig .tc := ⟨.hbm, 81, rfl⟩
abbrev main_v56 : Ref sig .tc := ⟨.hbm, 82, rfl⟩
abbrev main_v57 : Ref sig .tc := ⟨.hbm, 83, rfl⟩
abbrev main_c_13 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_14 : Ref sig .tc := ⟨.hbm, 91, rfl⟩
abbrev main_v64 : Ref sig .tc := ⟨.hbm, 92, rfl⟩
abbrev main_v65 : Ref sig .tc := ⟨.hbm, 93, rfl⟩
abbrev main_c_15 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_16 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_c_18 : Ref sig .tc := ⟨.hbm, 114, rfl⟩
abbrev main_v83 : Ref sig .tc := ⟨.hbm, 115, rfl⟩
abbrev main_v84 : Ref sig .tc := ⟨.hbm, 116, rfl⟩
abbrev main_c_19 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_c_20 : Ref sig .tc := ⟨.hbm, 123, rfl⟩
abbrev main_v90 : Ref sig .tc := ⟨.hbm, 124, rfl⟩
abbrev main_v91 : Ref sig .tc := ⟨.hbm, 125, rfl⟩
abbrev main_c_21 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_c_22 : Ref sig .tc := ⟨.hbm, 133, rfl⟩
abbrev main_v98 : Ref sig .tc := ⟨.hbm, 134, rfl⟩
abbrev main_v99 : Ref sig .tc := ⟨.hbm, 135, rfl⟩
abbrev main_c_23 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_24 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_cst_25 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_26 : Ref sig .tc := ⟨.hbm, 156, rfl⟩
abbrev main_v117 : Ref sig .tc := ⟨.hbm, 157, rfl⟩
abbrev main_cst_27 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_cst_28 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc5_stg3_0 : Ref sig .tc := ⟨.vmem, 42, rfl⟩
abbrev cc5_stg4_0 : Ref sig .tc := ⟨.vmem, 43, rfl⟩
abbrev cc5_stg4_1 : Ref sig .tc := ⟨.vmem, 44, rfl⟩
abbrev cc6_stg0_0 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg3_0 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem4_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41
abbrev cc5_sem3_0 : DmaSem sig := 42
abbrev cc5_sem4_0 : DmaSem sig := 43
abbrev cc5_sem4_1 : DmaSem sig := 44
abbrev cc6_sem0_0 : DmaSem sig := 45
abbrev cc6_sem1_0 : DmaSem sig := 46
abbrev cc6_sem2_0 : DmaSem sig := 47
abbrev cc6_sem3_0 : DmaSem sig := 48

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S256x64 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S64x45 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x45 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x45 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S64 : S_.BroadcastsInDim S64 (![] : Fin 0 → Fin S64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S100000_S100000x1 : S100000.ShapeCasts S100000x1
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S256x64 : S_.BroadcastsInDim S256x64 (![] : Fin 0 → Fin S256x64.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  shapeCasts_S45_S1x45 : S45.ShapeCasts S1x45
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64x45_S64x45_0_0 : ∀ a, (![0, 0] : Fin 2 → Nat) a + S64x45.size a ≤ S64x45.size a
  h_S64x45 : 0 < S64x45.numel
  inb_S1x45_S1x45_0_0 : ∀ a, (![0, 0] : Fin 2 → Nat) a + S1x45.size a ≤ S1x45.size a
  h_S1x45 : 0 < S1x45.numel
  shapeCasts_S1x45_S1x45 : S1x45.ShapeCasts S1x45
  broadcasts_S1x45_S256x45 : S1x45.Broadcasts S256x45
  inb_S256x45_S256x45_0_0 : ∀ a, (![0, 0] : Fin 2 → Nat) a + S256x45.size a ≤ S256x45.size a
  h_S256x45 : 0 < S256x45.numel
  scatter_S100000_S1600000x1_S1600000_n_0_0_1_wf : ScatterDims.WF S100000 S1600000x1 S1600000 [] [0] [0] 1
  dot_S5000x64_S64x64_S5000x64_1_0_0_1_n_n_wf : DotDims.WF S5000x64 S64x64 S5000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x45_S256x45_1_0_0_1_n_n_wf : DotDims.WF S256x64 S64x45 S256x45 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S100000x64.size a
  hwx5_4 : ∀ i : grid5.Coords, EltTy.bits .f32 = 32 ∨ (Rect.block (s := S100000x64) S5000x64.size (cc5_transform_4 i) (hinb5_4 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S256x64.size a ≤ S256x64.size a
  hwx6_0 : ∀ i : grid6.Coords, EltTy.bits .f32 = 32 ∨ (Rect.block (s := S256x64) S256x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x45.size a ≤ S64x45.size a
  hwx6_1 : ∀ i : grid6.Coords, EltTy.bits .f32 = 32 ∨ (Rect.block (s := S64x45) S64x45.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x45.size a ≤ S1x45.size a
  hwx6_2 : ∀ i : grid6.Coords, EltTy.bits .f32 = 32 ∨ (Rect.block (s := S1x45) S1x45.size (cc6_transform_2 i) (hinb6_2 i)).WholeWords (EltTy.packing .f32)
  hstage6_3 : ∀ j, (stage6_3 j).IsWhole
  nbuf6_3 : grid6.bufCount reads6_3 false = 1
  hreads6_3 : ∀ i i' : grid6.Coords, (∀ a, reads6_3 a = true → i a = i' a) → cc6_transform_3 i = cc6_transform_3 i'
  hinb6_3 : ∀ (i : grid6.Coords) a, (cc6_transform_3 i a + 1) * S256x45.size a ≤ S256x45.size a
  hwx6_3 : ∀ i : grid6.Coords, EltTy.bits .f32 = 32 ∨ (Rect.block (s := S256x45) S256x45.size (cc6_transform_3 i) (hinb6_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x45_S256x45_1_0_0_1_n_n : DotDims S256x64 S64x45 S256x45 where
  lhsContracting := [1]
  rhsContracting := [0]
  lhsNonContracting := [0]
  rhsNonContracting := [1]
  lhsBatch := []
  rhsBatch := []
  wf := dot_S256x64_S64x45_S256x45_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v42) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v76) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v78) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v77) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v79) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v79) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v81) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v82) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v110) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v82) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v112) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v111) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v113) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v125) S256x64.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S64x45.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v126) S1x45.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v127) S256x45.size cc6_transform_3 reads6_3 true false 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x45 : Shape := ⟨2, ![64, 45]⟩
abbrev S45 : Shape := ⟨1, ![45]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S256x64 : Shape := ⟨2, ![256, 64]⟩
abbrev S256 : Shape := ⟨1, ![256]⟩
abbrev S256x1 : Shape := ⟨2, ![256, 1]⟩
abbrev S256x45 : Shape := ⟨2, ![256, 45]⟩
abbrev S1x45 : Shape := ⟨2, ![1, 45]⟩

abbrev nBuf : Space → Nat
  | .hbm => 203
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x45, .f32⟩
  | 10 => ⟨S45, .f32⟩
  | 11 => ⟨S1x1600000, .i32⟩
  | 12 => ⟨S1600000, .i32⟩
  | 13 => ⟨S1x1600000, .i32⟩
  | 14 => ⟨S1600000, .i32⟩
  | 15 => ⟨S100000x64, .f32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x64, .f32⟩
  | 54 => ⟨S1600000x1, .f32⟩
  | 55 => ⟨S1600000x64, .f32⟩
  | 56 => ⟨S1600000x64, .f32⟩
  | 57 => ⟨S_, .f32⟩
  | 58 => ⟨S100000x64, .f32⟩
  | 59 => ⟨S1600000x1, .i32⟩
  | 60 => ⟨S100000x64, .f32⟩
  | 61 => ⟨S100000, .f32⟩
  | 62 => ⟨S100000x1, .f32⟩
  | 63 => ⟨S100000x64, .f32⟩
  | 64 => ⟨S100000x64, .f32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x64, .f32⟩
  | 73 => ⟨S_, .f32⟩
  | 74 => ⟨S1600000, .f32⟩
  | 75 => ⟨S_, .f32⟩
  | 76 => ⟨S100000, .f32⟩
  | 77 => ⟨S1600000x1, .i32⟩
  | 78 => ⟨S100000, .f32⟩
  | 79 => ⟨S_, .f32⟩
  | 80 => ⟨S100000, .f32⟩
  | 81 => ⟨S100000, .f32⟩
  | 82 => ⟨S100000, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000, .f32⟩
  | 101 => ⟨S1600000, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x64, .f32⟩
  | 111 => ⟨S1600000x1, .f32⟩
  | 112 => ⟨S1600000x64, .f32⟩
  | 113 => ⟨S1600000x64, .f32⟩
  | 114 => ⟨S_, .f32⟩
  | 115 => ⟨S100000x64, .f32⟩
  | 116 => ⟨S1600000x1, .i32⟩
  | 117 => ⟨S100000x64, .f32⟩
  | 118 => ⟨S100000, .f32⟩
  | 119 => ⟨S100000x1, .f32⟩
  | 120 => ⟨S100000x64, .f32⟩
  | 121 => ⟨S100000x64, .f32⟩
  | 122 => ⟨S100000x64, .f32⟩
  | 123 => ⟨S1x64, .f32⟩
  | 124 => ⟨S100000x64, .f32⟩
  | 125 => ⟨S100000x64, .f32⟩
  | 126 => ⟨S_, .f32⟩
  | 127 => ⟨S100000x64, .f32⟩
  | _ => ⟨S100000x64, .f32⟩

abbrev hbmTy0_1 (i : Nat) : BufTy := match i % 128 with
  | 0 => ⟨S100000x64, .f32⟩
  | 1 => ⟨S100000x64, .f32⟩
  | 2 => ⟨S_, .f32⟩
  | 3 => ⟨S1600000, .f32⟩
  | 4 => ⟨S_, .f32⟩
  | 5 => ⟨S100000, .f32⟩
  | 6 => ⟨S1600000x1, .i32⟩
  | 7 => ⟨S100000, .f32⟩
  | 8 => ⟨S_, .f32⟩
  | 9 => ⟨S100000, .f32⟩
  | 10 => ⟨S100000, .f32⟩
  | 11 => ⟨S100000, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000, .f32⟩
  | 30 => ⟨S1600000, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x64, .f32⟩
  | 40 => ⟨S1600000x1, .f32⟩
  | 41 => ⟨S1600000x64, .f32⟩
  | 42 => ⟨S1600000x64, .f32⟩
  | 43 => ⟨S_, .f32⟩
  | 44 => ⟨S100000x64, .f32⟩
  | 45 => ⟨S1600000x1, .i32⟩
  | 46 => ⟨S100000x64, .f32⟩
  | 47 => ⟨S100000, .f32⟩
  | 48 => ⟨S100000x1, .f32⟩
  | 49 => ⟨S100000x64, .f32⟩
  | 50 => ⟨S100000x64, .f32⟩
  | 51 => ⟨S100000x64, .f32⟩
  | 52 => ⟨S1x64, .f32⟩
  | 53 => ⟨S100000x64, .f32⟩
  | 54 => ⟨S100000x64, .f32⟩
  | 55 => ⟨S_, .f32⟩
  | 56 => ⟨S256x64, .f32⟩
  | 57 => ⟨S100000x1, .i32⟩
  | 58 => ⟨S256x64, .f32⟩
  | 59 => ⟨S_, .f32⟩
  | 60 => ⟨S100000, .f32⟩
  | 61 => ⟨S_, .f32⟩
  | 62 => ⟨S256, .f32⟩
  | 63 => ⟨S100000x1, .i32⟩
  | 64 => ⟨S256, .f32⟩
  | 65 => ⟨S_, .f32⟩
  | 66 => ⟨S256, .f32⟩
  | 67 => ⟨S256, .f32⟩
  | 68 => ⟨S256x1, .f32⟩
  | 69 => ⟨S256x64, .f32⟩
  | 70 => ⟨S256x64, .f32⟩
  | 71 => ⟨S256x45, .f32⟩
  | 72 => ⟨S1x45, .f32⟩
  | 73 => ⟨S256x45, .f32⟩
  | 74 => ⟨S256x45, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_v57 : Ref sig .tc := ⟨.hbm, 84, rfl⟩
abbrev main_v58 : Ref sig .tc := ⟨.hbm, 85, rfl⟩
abbrev main_c_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_15 : Ref sig .tc := ⟨.hbm, 102, rfl⟩
abbrev main_v72 : Ref sig .tc := ⟨.hbm, 103, rfl⟩
abbrev main_v73 : Ref sig .tc := ⟨.hbm, 104, rfl⟩
abbrev main_c_16 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_17 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_call1_cst : Ref sig .tc := ⟨.hbm, 126, rfl⟩
abbrev main_call1_v0 : Ref sig .tc := ⟨.hbm, 127, rfl⟩
abbrev main_v93 : Ref sig .tc := ⟨.hbm, 128, rfl⟩
abbrev main_v94 : Ref sig .tc := ⟨.hbm, 129, rfl⟩
abbrev main_cst_18 : Ref sig .tc := ⟨.hbm, 130, rfl⟩
abbrev main_v95 : Ref sig .tc := ⟨.hbm, 131, rfl⟩
abbrev main_cst_19 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_20 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_c_21 : Ref sig .tc := ⟨.hbm, 140, rfl⟩
abbrev main_v102 : Ref sig .tc := ⟨.hbm, 141, rfl⟩
abbrev main_v103 : Ref sig .tc := ⟨.hbm, 142, rfl⟩
abbrev main_c_22 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_c_23 : Ref sig .tc := ⟨.hbm, 149, rfl⟩
abbrev main_v109 : Ref sig .tc := ⟨.hbm, 150, rfl⟩
abbrev main_v110 : Ref sig .tc := ⟨.hbm, 151, rfl⟩
abbrev main_c_24 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_c_25 : Ref sig .tc := ⟨.hbm, 159, rfl⟩
abbrev main_v117 : Ref sig .tc := ⟨.hbm, 160, rfl⟩
abbrev main_v118 : Ref sig .tc := ⟨.hbm, 161, rfl⟩
abbrev main_c_26 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_27 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_cst_28 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_cst_29 : Ref sig .tc := ⟨.hbm, 187, rfl⟩
abbrev main_v141 : Ref sig .tc := ⟨.hbm, 188, rfl⟩
abbrev main_cst_30 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_cst_31 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S256x64 : S_.BroadcastsInDim S256x64 (![] : Fin 0 → Fin S256x64.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S45_S1x45_1 : S45.BroadcastsInDim S1x45 (![1] : Fin 1 → Fin S1x45.rank)
  bcast_S1x45_S256x45_0_1 : S1x45.BroadcastsInDim S256x45 (![0, 1] : Fin 2 → Fin S256x45.rank)
  dot_S100000x64_S64x64_S100000x64_1_0_0_1_n_n_wf : DotDims.WF S100000x64 S64x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1
  dot_S256x64_S64x45_S256x45_1_0_0_1_n_n_wf : DotDims.WF S256x64 S64x45 S256x45 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x64_S64x45_S256x45_1_0_0_1_n_n : DotDims S256x64 S64x45 S256x45 where
  lhsContracting := [1]
  rhsContracting := [0]
  lhsNonContracting := [0]
  rhsNonContracting := [1]
  lhsBatch := []
  rhsBatch := []
  wf := dot_S256x64_S64x45_S256x45_1_0_0_1_n_n_wf

class Facts : Prop extends Facts₀ where

variable [Facts]
-- ==== Proof.KernelRun.lean ====
/-
  The idealized kernel's run with its result named.

  The program is seven kernel launches among stretches of host operations. Its buffers' contents at the boundaries are a
  fold from the launch memory: a host stretch rewrites the buffers its operations write, a launch replaces its arrays by
  what the write-backs of its grid leave. Every weakly fair execution terminates in a state whose unscoped buffers hold
  the last boundary's contents; read at the result buffer that is the program's value, and read at an argument it is the
  launch contents.
-/
import proofs.«179287_j42434276884907_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution terminates, nothing faulting, with the result buffer at the last boundary's contents and
    the argument arrays as launched. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h => h)

/-- The same run read at the result buffer and at the arguments: the result holds the last boundary's contents, each
    argument its launch contents (no host operation and no launch writes an argument). -/
theorem run_result : θ_run defs (onTc (τ := τ) (main (F := F))) ⟨m, fun _ => 0, ρ⟩ (fun r => ∀ c : Dev nD,
      r.2.mem ((c.tc : Thread nD τ).loc main_v127) = W14 m ρ c (Proc.devRef .tc main_v127)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun s h c =>
      ⟨h c _ (mem_uc main_v127 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c)⟩)
    (run_boundary m ρ)

end Cert.KernelIdeal.ResultRun

end
-- ==== Proof.LibDenseLayer.lean ====
/-
  The two dense steps of a graph-convolution layer, as functions of whole arrays, entry by entry, on the extended reals.

  `affine x w b` is the matrix product with a bias row: entry `(p, q)` is `Σ_k x (p, k) · w (k, q) + b (0, q)`. It depends
  on row `p` of `x` only, so a tiling of the rows computes it tile by tile.
  `combine agg h d b` adds to the aggregated messages the node's own features scaled by its column entry `d (p, 0)` and
  the bias row: entry `(p, q)` is `(agg (p, q) + h (p, q) · d (p, 0)) + b (0, q)`; `combineRelu` is its positive part.
  Both are pointwise in `p`, so again a tiling of the rows computes them tile by tile.
-/
import Idealize.ShloMosaic.PureOps.Ideal
import Idealize.ShloMosaic.Lib.ValueIdx

noncomputable section

open scoped BigOperators

namespace Cert.Spec

open Idealize.ShloMosaic Idealize.ShloMosaic.ValueIdx

variable {M K N : ℕ}

/-- The matrix product with a bias row, at `(p, q)`. -/
def affineAt (x : (⟨2, ![M, K]⟩ : Shape).Idx → EReal) (w : (⟨2, ![K, N]⟩ : Shape).Idx → EReal)
    (b : (⟨2, ![1, N]⟩ : Shape).Idx → EReal) (p : Fin M) (q : Fin N) : EReal :=
  (∑ k : Fin K, x (ix2 p k) * w (ix2 k q)) + b (ix2 (0 : Fin 1) q)

/-- The matrix product with a bias row, as an array. -/
def affine (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => affineAt x w b (i 0) (i 1)

theorem affine_apply (x : (⟨2, ![M, K]⟩ : Shape).Idx → EReal) (w : (⟨2, ![K, N]⟩ : Shape).Idx → EReal)
    (b : (⟨2, ![1, N]⟩ : Shape).Idx → EReal) (p : Fin M) (q : Fin N) :
    affine x w b (ix2 p q) = (∑ k : Fin K, x (ix2 p k) * w (ix2 k q)) + b (ix2 (0 : Fin 1) q) := rfl

/-- Aggregated messages plus the scaled self term plus the bias row, at `(p, q)`. -/
def combineAt (agg h : (⟨2, ![M, N]⟩ : Shape).Idx → EReal) (d : (⟨2, ![M, 1]⟩ : Shape).Idx → EReal)
    (b : (⟨2, ![1, N]⟩ : Shape).Idx → EReal) (p : Fin M) (q : Fin N) : EReal :=
  (agg (ix2 p q) + h (ix2 p q) * d (ix2 p (0 : Fin 1))) + b (ix2 (0 : Fin 1) q)

/-- The same as an array. -/
def combine (agg h : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun i => combineAt agg h d b (i 0) (i 1)

theorem combine_apply (agg h : (⟨2, ![M, N]⟩ : Shape).Idx → EReal) (d : (⟨2, ![M, 1]⟩ : Shape).Idx → EReal)
    (b : (⟨2, ![1, N]⟩ : Shape).Idx → EReal) (p : Fin M) (q : Fin N) :
    combine agg h d b (ix2 p q) = (agg (ix2 p q) + h (ix2 p q) * d (ix2 p (0 : Fin 1))) + b (ix2 (0 : Fin 1) q) := rfl

/-- Its positive part. -/
def combineRelu (agg h : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun i => max (combineAt agg h d b (i 0) (i 1)) 0

theorem combineRelu_apply (agg h : (⟨2, ![M, N]⟩ : Shape).Idx → EReal) (d : (⟨2, ![M, 1]⟩ : Shape).Idx → EReal)
    (b : (⟨2, ![1, N]⟩ : Shape).Idx → EReal) (p : Fin M) (q : Fin N) :
    combineRelu agg h d b (ix2 p q)
      = max ((agg (ix2 p q) + h (ix2 p q) * d (ix2 p (0 : Fin 1))) + b (ix2 (0 : Fin 1) q)) 0 := rfl

end Cert.Spec

end
-- ==== Proof.LibPlainDot.lean ====
/-
  The plain matrix product read at an index.

  For a left operand `[M, K]`, a right operand `[K, N]` and a result `[M, N]` with the one contracted axis the left's
  columns and the right's rows, the operand indices at result index `(p, q)` and contraction position `k` are `(p, k)`
  and `(k, q)`; so the contraction's sum, taken over the contraction shape's indices, is the textbook
  `Σ_{k < K} lhs (p, k) · rhs (k, q)`. At the extended reals both a kernel's matrix unit product into a zero
  accumulator and the host's `dot_general` are that sum.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The left operand's row is the result's row … -/
theorem lhs_row (i : (⟨2, ![M, N]⟩ : Shape).Idx) (k : (DotDims.plain M K N).contr.Idx) :
    ((DotDims.plain M K N).lhsIdx i k (0 : Fin 2)).val = (i 0).val := by
  unfold DotDims.lhsIdx
  rw [dif_neg (show ¬ (0 : Fin 2) ∈ (DotDims.plain M K N).lhsBatch from List.not_mem_nil),
    dif_pos (show (0 : Fin 2) ∈ (DotDims.plain M K N).lhsNonContracting from List.mem_singleton.mpr rfl)]
  rfl

/-- … its column the contraction position; -/
theorem lhs_col (i : (⟨2, ![M, N]⟩ : Shape).Idx) (k : (DotDims.plain M K N).contr.Idx) :
    ((DotDims.plain M K N).lhsIdx i k (1 : Fin 2)).val = (k ⟨0, Nat.one_pos⟩).val :=
  (DotDims.plain M K N).lhsIdx_val_of_single rfl i k

/-- the right operand's row is the contraction position … -/
theorem rhs_row (i : (⟨2, ![M, N]⟩ : Shape).Idx) (k : (DotDims.plain M K N).contr.Idx) :
    ((DotDims.plain M K N).rhsIdx i k (0 : Fin 2)).val = (k ⟨0, Nat.one_pos⟩).val :=
  (DotDims.plain M K N).rhsIdx_val_of_single rfl i k

/-- … and its column the result's column. -/
theorem rhs_col (i : (⟨2, ![M, N]⟩ : Shape).Idx) (k : (DotDims.plain M K N).contr.Idx) :
    ((DotDims.plain M K N).rhsIdx i k (1 : Fin 2)).val = (i 1).val := by
  unfold DotDims.rhsIdx
  rw [dif_neg (show ¬ (1 : Fin 2) ∈ (DotDims.plain M K N).rhsBatch from List.not_mem_nil),
    dif_pos (show (1 : Fin 2) ∈ (DotDims.plain M K N).rhsNonContracting from List.mem_singleton.mpr rfl)]
  rfl

/-- The contraction's sum at result index `(p, q)` is `Σ_{k < K} lhs (p, k) · rhs (k, q)`. -/
theorem contraction_sum (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- A kernel's product into the zero accumulator, at `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply _ prec lhs rhs (ix2 p q)).trans (contraction_sum lhs rhs p q)

/-- The host's `dot_general`, at `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) :=
  (Ideal.dotGeneral_apply _ prec sched lhs rhs (ix2 p q)).trans (contraction_sum lhs rhs p q)

end Idealize.ShloMosaic.PlainDot

end
-- ==== Proof.LibKeepdims.lean ====
/-
  Layout operations on a column, read at an index. A kernel that forms an outer difference or an outer product of two
  vectors writes `x[:, None]` and `y[None, :]`: a length-`a` vector viewed as an `a × 1` column or a `1 × a` row and
  then spread over an `a × b` array. The row forms are in the library; these are the column forms, and the two casts
  that drop the leading unit axes of a pipelined block. Each lemma names the one operand entry an entry of the result
  reads, by coordinates.
-/
import Idealize.ShloMosaic.Lib.ValueIdx
import Idealize.ShloMosaic.Lib.ValueLayout
import Idealize.ShloMosaic.Lib.Pipeline.Value

namespace Idealize.ShloMosaic.Keepdims

open Idealize.ShloMosaic Idealize.ShloMosaic.ValueIdx

variable {α : Type}

/-- An `[a, 1]` column cast to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector `[a]` cast to the `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column spread over `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` block cast to `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- A `[1, 1, a]` block cast to `[a]` reads, at `i`, the block at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

end Idealize.ShloMosaic.Keepdims
-- ==== Proof.LibDenseLayerLaws.lean ====
/-
  The dense steps of a graph-convolution layer, in the form a tiled kernel computes them and in the form a host
  program spells them, are the same arrays on the extended reals.

  * A matrix product plus a bias row that is zero is the host's `dot_general`; plus a bias row that is a vector viewed as
    one row, it is the host's `dot_general` plus that vector broadcast over the rows.
  * "Aggregated messages plus own features times a per-row factor, plus a bias" with the factor a vector viewed as a
    column and the bias a vector viewed as a row is the host's sum of the aggregate, the features times the factor
    broadcast along the rows' length, and the bias broadcast over the rows; its positive part is the host's maximum
    with the zero array.
  Each is read entry by entry: a cast or broadcast names the one operand entry it reads, the zero word is the real 0.
-/
import proofs.«179287_j42434276884907_1_alg».proof.Proof.LibDenseLayer
import proofs.«179287_j42434276884907_1_alg».proof.Proof.LibPlainDot
import proofs.«179287_j42434276884907_1_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.DenseLaws

open Idealize.ShloMosaic Idealize.ShloMosaic.ValueIdx

variable {M K N : ℕ}

/-- A vector laid down a column, `[M] → [M, 1]`, then spread along the rows' length, `[M, 1] → [M, N]`, reads at `(p, q)`
    the vector at `p`: each spread reads the operand at the same row; when `M = 1` the only row is row `0`. -/
private theorem colSpread_apply (d : FVec Ideal ⟨1, ![M]⟩ .f32)
    (hd1 : (⟨1, ![M]⟩ : Shape).BroadcastsInDim ⟨2, ![M, 1]⟩ ![0]) (hd2 : (⟨2, ![M, 1]⟩ : Shape).BroadcastsInDim ⟨2, ![M, N]⟩ ![0, 1])
    (p : Fin M) (q : Fin N) :
    broadcastInDim ⟨2, ![M, N]⟩ ![0, 1] hd2 (broadcastInDim ⟨2, ![M, 1]⟩ ![0] hd1 d) (ix2 p q) = d (ix1 p) := by
  refine (broadcastInDim_apply ![0, 1] hd2 _ (ix2 p q) (ix2 p (0 : Fin 1)) fun a => ?_).trans ?_
  · match a with
    | ⟨0, _⟩ =>
      show p.val = if M = 1 then 0 else p.val
      split
      · have := p.isLt; omega
      · rfl
    | ⟨1, _⟩ => rfl
  · refine broadcastInDim_apply ![0] hd1 d (ix2 p (0 : Fin 1)) (ix1 p) fun a => ?_
    match a with
    | ⟨0, _⟩ =>
      show p.val = if M = 1 then 0 else p.val
      split
      · have := p.isLt; omega
      · rfl

/-- A vector laid along a row, `[N] → [1, N]`, then spread over the rows, `[1, N] → [M, N]`, reads at `(p, q)` the
    vector at `q`: each spread reads the operand at the same column; when `N = 1` the only column is column `0`. -/
private theorem rowSpread_apply (b : FVec Ideal ⟨1, ![N]⟩ .f32)
    (hb1 : (⟨1, ![N]⟩ : Shape).BroadcastsInDim ⟨2, ![1, N]⟩ ![1]) (hb2 : (⟨2, ![1, N]⟩ : Shape).BroadcastsInDim ⟨2, ![M, N]⟩ ![0, 1])
    (p : Fin M) (q : Fin N) :
    broadcastInDim ⟨2, ![M, N]⟩ ![0, 1] hb2 (broadcastInDim ⟨2, ![1, N]⟩ ![1] hb1 b) (ix2 p q) = b (ix1 q) := by
  refine (broadcastInDim_apply ![0, 1] hb2 _ (ix2 p q) (ix2 (0 : Fin 1) q) fun a => ?_).trans ?_
  · match a with
    | ⟨0, _⟩ => rfl
    | ⟨1, _⟩ =>
      show q.val = if N = 1 then 0 else q.val
      split
      · have := q.isLt; omega
      · rfl
  · refine broadcastInDim_apply ![1] hb1 b (ix2 (0 : Fin 1) q) (ix1 q) fun a => ?_
    match a with
    | ⟨0, _⟩ =>
      show q.val = if N = 1 then 0 else q.val
      split
      · have := q.isLt; omega
      · rfl

/-- The zero scalar spread over any shape is the real `0` at every index: the spread reads the scalar's one entry, whose
    word is the zero word. -/
private theorem zeroSpread_apply {t : Shape} (h0 : (⟨0, ![]⟩ : Shape).BroadcastsInDim t ![]) (j : t.Idx) :
    broadcastInDim t ![] h0 (constant (F := Ideal) ⟨0, ![]⟩ .f32 0x00000000#32) j = (0 : EReal) := by
  refine (broadcastInDim_apply (s := ⟨0, ![]⟩) ![] h0 _ j ix0 fun a => a.elim0).trans ?_
  rw [constant_apply]
  exact Ideal.ofBits_zero_f32

/-- A zero vector viewed as one row is zero at every column. -/
theorem zeroRow_apply (h0 : (⟨0, ![]⟩ : Shape).BroadcastsInDim ⟨1, ![N]⟩ ![]) (hc : (⟨1, ![N]⟩ : Shape).ShapeCasts ⟨2, ![1, N]⟩)
    (u : Fin 1) (q : Fin N) :
    shapeCast ⟨2, ![1, N]⟩ (broadcastInDim ⟨1, ![N]⟩ ![] h0 (constant (F := Ideal) ⟨0, ![]⟩ .f32 0x00000000#32)) hc (ix2 u q) = (0 : EReal) := by
  exact (shapeCast_a_1a_apply _ hc u q).trans (zeroSpread_apply h0 (ix1 q))

/-- The product with a bias row that is zero is the host's `dot_general`. -/
theorem affine_zero (x : FVec Ideal ⟨2, ![M, K]⟩ .f32) (w : FVec Ideal ⟨2, ![K, N]⟩ .f32) (z : FVec Ideal ⟨2, ![1, N]⟩ .f32)
    (hz : ∀ q : Fin N, z (ix2 (0 : Fin 1) q) = 0) :
    Cert.Spec.affine x w z = Host.dotGeneral (F := Ideal) (DotDims.plain M K N) none x w := by
  funext i
  obtain ⟨p, q, rfl⟩ : ∃ (p : Fin M) (q : Fin N), i = ix2 p q := ⟨i 0, i 1, eq_ix2 i⟩
  rw [Cert.Spec.affine_apply, hz q, add_zero]
  exact (PlainDot.dotGeneral_apply none .single x w p q).symm

/-- The product with a vector viewed as one row for bias is the host's `dot_general` plus the vector broadcast over the rows. -/
theorem affine_row (x : FVec Ideal ⟨2, ![M, K]⟩ .f32) (w : FVec Ideal ⟨2, ![K, N]⟩ .f32) (b : FVec Ideal ⟨1, ![N]⟩ .f32)
    (hc : (⟨1, ![N]⟩ : Shape).ShapeCasts ⟨2, ![1, N]⟩)
    (h1 : (⟨1, ![N]⟩ : Shape).BroadcastsInDim ⟨2, ![1, N]⟩ ![1]) (h2 : (⟨2, ![1, N]⟩ : Shape).BroadcastsInDim ⟨2, ![M, N]⟩ ![0, 1]) :
    Cert.Spec.affine x w (shapeCast ⟨2, ![1, N]⟩ b hc)
      = addf (Host.dotGeneral (F := Ideal) (DotDims.plain M K N) none x w)
          (broadcastInDim ⟨2, ![M, N]⟩ ![0, 1] h2 (broadcastInDim ⟨2, ![1, N]⟩ ![1] h1 b)) := by
  funext i
  obtain ⟨p, q, rfl⟩ : ∃ (p : Fin M) (q : Fin N), i = ix2 p q := ⟨i 0, i 1, eq_ix2 i⟩
  rw [Cert.Spec.affine_apply, shapeCast_a_1a_apply, addf_apply, rowSpread_apply]
  exact congrArg (· + b (ix1 q)) (PlainDot.dotGeneral_apply none .single x w p q).symm

/-- The combine step, factor a vector viewed as a column and bias a vector viewed as a row, in the host's spelling. -/
theorem combine_host (agg h : FVec Ideal ⟨2, ![M, N]⟩ .f32) (d : FVec Ideal ⟨1, ![M]⟩ .f32) (b : FVec Ideal ⟨1, ![N]⟩ .f32)
    (hcd : (⟨1, ![M]⟩ : Shape).ShapeCasts ⟨2, ![M, 1]⟩) (hcb : (⟨1, ![N]⟩ : Shape).ShapeCasts ⟨2, ![1, N]⟩)
    (hd1 : (⟨1, ![M]⟩ : Shape).BroadcastsInDim ⟨2, ![M, 1]⟩ ![0]) (hd2 : (⟨2, ![M, 1]⟩ : Shape).BroadcastsInDim ⟨2, ![M, N]⟩ ![0, 1])
    (hb1 : (⟨1, ![N]⟩ : Shape).BroadcastsInDim ⟨2, ![1, N]⟩ ![1]) (hb2 : (⟨2, ![1, N]⟩ : Shape).BroadcastsInDim ⟨2, ![M, N]⟩ ![0, 1]) :
    Cert.Spec.combine agg h (shapeCast ⟨2, ![M, 1]⟩ d hcd) (shapeCast ⟨2, ![1, N]⟩ b hcb)
      = addf (addf agg (mulf h (broadcastInDim ⟨2, ![M, N]⟩ ![0, 1] hd2 (broadcastInDim ⟨2, ![M, 1]⟩ ![0] hd1 d))))
          (broadcastInDim ⟨2, ![M, N]⟩ ![0, 1] hb2 (broadcastInDim ⟨2, ![1, N]⟩ ![1] hb1 b)) := by
  funext i
  obtain ⟨p, q, rfl⟩ : ∃ (p : Fin M) (q : Fin N), i = ix2 p q := ⟨i 0, i 1, eq_ix2 i⟩
  rw [Cert.Spec.combine_apply, Keepdims.shapeCast_a_a1_apply, shapeCast_a_1a_apply, addf_apply, addf_apply, mulf_apply,
    colSpread_apply, rowSpread_apply]

/-- Its positive part is the host's maximum with the zero array. -/
theorem combineRelu_host (agg h : FVec Ideal ⟨2, ![M, N]⟩ .f32) (d : FVec Ideal ⟨1, ![M]⟩ .f32) (b : FVec Ideal ⟨1, ![N]⟩ .f32)
    (hcd : (⟨1, ![M]⟩ : Shape).ShapeCasts ⟨2, ![M, 1]⟩) (hcb : (⟨1, ![N]⟩ : Shape).ShapeCasts ⟨2, ![1, N]⟩)
    (hd1 : (⟨1, ![M]⟩ : Shape).BroadcastsInDim ⟨2, ![M, 1]⟩ ![0]) (hd2 : (⟨2, ![M, 1]⟩ : Shape).BroadcastsInDim ⟨2, ![M, N]⟩ ![0, 1])
    (hb1 : (⟨1, ![N]⟩ : Shape).BroadcastsInDim ⟨2, ![1, N]⟩ ![1]) (hb2 : (⟨2, ![1, N]⟩ : Shape).BroadcastsInDim ⟨2, ![M, N]⟩ ![0, 1])
    (h0 : (⟨0, ![]⟩ : Shape).BroadcastsInDim ⟨2, ![M, N]⟩ ![]) :
    Cert.Spec.combineRelu agg h (shapeCast ⟨2, ![M, 1]⟩ d hcd) (shapeCast ⟨2, ![1, N]⟩ b hcb)
      = maximumf (addf (addf agg (mulf h (broadcastInDim ⟨2, ![M, N]⟩ ![0, 1] hd2 (broadcastInDim ⟨2, ![M, 1]⟩ ![0] hd1 d))))
          (broadcastInDim ⟨2, ![M, N]⟩ ![0, 1] hb2 (broadcastInDim ⟨2, ![1, N]⟩ ![1] hb1 b)))
          (broadcastInDim ⟨2, ![M, N]⟩ ![] h0 (constant (F := Ideal) ⟨0, ![]⟩ .f32 0x00000000#32)) := by
  funext i
  obtain ⟨p, q, rfl⟩ : ∃ (p : Fin M) (q : Fin N), i = ix2 p q := ⟨i 0, i 1, eq_ix2 i⟩
  rw [Cert.Spec.combineRelu_apply, Keepdims.shapeCast_a_a1_apply, shapeCast_a_1a_apply, maximumf_apply, addf_apply, addf_apply,
    mulf_apply, colSpread_apply, rowSpread_apply, zeroSpread_apply]

end Cert.DenseLaws

end
-- ==== Proof.Keep.lean ====
/-
  Buffers that ride through the program untouched.

  The program's buffers at its boundaries are a fold from the launch memory: a host stretch rewrites exactly the
  buffers its operations write, and a launch replaces exactly its own arrays. So a buffer that is neither written by the
  stretches nor an array of the launches in between holds at a later boundary what it held at the first one. Each
  stretch's written buffers are listed once; "not among them" and "not an array of that launch" are decided by
  evaluation for each literal buffer that is carried.
-/
import proofs.«179287_j42434276884907_1_alg».proof.Proof.Gen.KernelIdeal.Frame
import Idealize.ShloMosaic.Lib.StableHlo.Run

set_option maxRecDepth 16384

noncomputable section

namespace Cert.KernelIdeal.Keep

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-- The buffers the second host stretch writes. -/
abbrev written1 : List (Ref sig .tc) :=
  [main_c, main_v15, main_v16, main_c_3, main_v17, main_v18, main_v19, main_v20, main_v21, main_c_4, main_v22, main_v23, main_c_5, main_v24, main_v25, main_v26, main_v27, main_v28, main_v29, main_c_6, main_v30, main_v31, main_c_7, main_v32, main_v33, main_v34, main_v35, main_v36, main_v37, main_v38, main_v39, main_cst_8, main_v40, main_v41, main_v42, main_v43, main_v44]

theorem writes1 : (hostOps1 : List (HloOp τ sig (Elt F))).Forall fun op => op.writes ⊆ ((written1).map (Proc.devRef (τ := τ) .tc)).toFinset := by
  simp only [hostOps1, List.Forall, nullary_writes, unary_writes, binary_writes, ternary_writes, reshape_writes,
    Finset.singleton_subset_iff, List.mem_toFinset]
  repeat' apply And.intro
  all_goals exact List.mem_map.mpr ⟨_, by decide, rfl⟩

/-- A buffer the stretch does not write holds after it what it held before. -/
theorem host1 (r : Ref sig .tc) (hr : r ∉ written1 := by decide) :
    W3 m ρ c (Proc.devRef .tc r) = W2 m ρ c (Proc.devRef .tc r) :=
  after_of_writes_sub hostOps1 (W2 m ρ c) writes1 hr

/-- The buffers the third host stretch writes. -/
abbrev written2 : List (Ref sig .tc) :=
  [main_cst_9, main_v46, main_v47]

theorem writes2 : (hostOps2 : List (HloOp τ sig (Elt F))).Forall fun op => op.writes ⊆ ((written2).map (Proc.devRef (τ := τ) .tc)).toFinset := by
  simp only [hostOps2, List.Forall, nullary_writes, unary_writes, binary_writes, ternary_writes, reshape_writes,
    Finset.singleton_subset_iff, List.mem_toFinset]
  repeat' apply And.intro
  all_goals exact List.mem_map.mpr ⟨_, by decide, rfl⟩

/-- A buffer the stretch does not write holds after it what it held before. -/
theorem host2 (r : Ref sig .tc) (hr : r ∉ written2 := by decide) :
    W5 m ρ c (Proc.devRef .tc r) = W4 m ρ c (Proc.devRef .tc r) :=
  after_of_writes_sub hostOps2 (W4 m ρ c) writes2 hr

/-- The buffers the fourth host stretch writes. -/
abbrev written3 : List (Ref sig .tc) :=
  [main_c_10, main_v49, main_v50, main_c_11, main_v51, main_v52, main_v53, main_v54, main_v55, main_c_12, main_v56, main_v57, main_c_13, main_v58, main_v59, main_v60, main_v61, main_v62, main_v63, main_c_14, main_v64, main_v65, main_c_15, main_v66, main_v67, main_v68, main_v69, main_v70, main_v71, main_v72, main_v73, main_cst_16, main_v74, main_v75, main_v76, main_v77, main_v78]

theorem writes3 : (hostOps3 : List (HloOp τ sig (Elt F))).Forall fun op => op.writes ⊆ ((written3).map (Proc.devRef (τ := τ) .tc)).toFinset := by
  simp only [hostOps3, List.Forall, nullary_writes, unary_writes, binary_writes, ternary_writes, reshape_writes,
    Finset.singleton_subset_iff, List.mem_toFinset]
  repeat' apply And.intro
  all_goals exact List.mem_map.mpr ⟨_, by decide, rfl⟩

/-- A buffer the stretch does not write holds after it what it held before. -/
theorem host3 (r : Ref sig .tc) (hr : r ∉ written3 := by decide) :
    W7 m ρ c (Proc.devRef .tc r) = W6 m ρ c (Proc.devRef .tc r) :=
  after_of_writes_sub hostOps3 (W6 m ρ c) writes3 hr

/-- The buffers the fifth host stretch writes. -/
abbrev written4 : List (Ref sig .tc) :=
  [main_cst_17, main_v80, main_v81]

theorem writes4 : (hostOps4 : List (HloOp τ sig (Elt F))).Forall fun op => op.writes ⊆ ((written4).map (Proc.devRef (τ := τ) .tc)).toFinset := by
  simp only [hostOps4, List.Forall, nullary_writes, unary_writes, binary_writes, ternary_writes, reshape_writes,
    Finset.singleton_subset_iff, List.mem_toFinset]
  repeat' apply And.intro
  all_goals exact List.mem_map.mpr ⟨_, by decide, rfl⟩

/-- A buffer the stretch does not write holds after it what it held before. -/
theorem host4 (r : Ref sig .tc) (hr : r ∉ written4 := by decide) :
    W9 m ρ c (Proc.devRef .tc r) = W8 m ρ c (Proc.devRef .tc r) :=
  after_of_writes_sub hostOps4 (W8 m ρ c) writes4 hr

/-- The buffers the sixth host stretch writes. -/
abbrev written5 : List (Ref sig .tc) :=
  [main_c_18, main_v83, main_v84, main_c_19, main_v85, main_v86, main_v87, main_v88, main_v89, main_c_20, main_v90, main_v91, main_c_21, main_v92, main_v93, main_v94, main_v95, main_v96, main_v97, main_c_22, main_v98, main_v99, main_c_23, main_v100, main_v101, main_v102, main_v103, main_v104, main_v105, main_v106, main_v107, main_cst_24, main_v108, main_v109, main_v110, main_v111, main_v112]

theorem writes5 : (hostOps5 : List (HloOp τ sig (Elt F))).Forall fun op => op.writes ⊆ ((written5).map (Proc.devRef (τ := τ) .tc)).toFinset := by
  simp only [hostOps5, List.Forall, nullary_writes, unary_writes, binary_writes, ternary_writes, reshape_writes,
    Finset.singleton_subset_iff, List.mem_toFinset]
  repeat' apply And.intro
  all_goals exact List.mem_map.mpr ⟨_, by decide, rfl⟩

/-- A buffer the stretch does not write holds after it what it held before. -/
theorem host5 (r : Ref sig .tc) (hr : r ∉ written5 := by decide) :
    W11 m ρ c (Proc.devRef .tc r) = W10 m ρ c (Proc.devRef .tc r) :=
  after_of_writes_sub hostOps5 (W10 m ρ c) writes5 hr

/-- The buffers the seventh host stretch writes. -/
abbrev written6 : List (Ref sig .tc) :=
  [main_cst_25, main_v114, main_v115, main_v116, main_cst_26, main_v117, main_cst_27, main_v118, main_v119, main_v120, main_cst_28, main_v121, main_v122, main_v123, main_v124, main_v125, main_v126]

theorem writes6 : (hostOps6 : List (HloOp τ sig (Elt F))).Forall fun op => op.writes ⊆ ((written6).map (Proc.devRef (τ := τ) .tc)).toFinset := by
  simp only [hostOps6, List.Forall, nullary_writes, unary_writes, binary_writes, ternary_writes, reshape_writes,
    Finset.singleton_subset_iff, List.mem_toFinset]
  repeat' apply And.intro
  all_goals exact List.mem_map.mpr ⟨_, by decide, rfl⟩

/-- A buffer the stretch does not write holds after it what it held before. -/
theorem host6 (r : Ref sig .tc) (hr : r ∉ written6 := by decide) :
    W13 m ρ c (Proc.devRef .tc r) = W12 m ρ c (Proc.devRef .tc r) :=
  after_of_writes_sub hostOps6 (W12 m ρ c) writes6 hr

/-- Neither written nor a launch's array up to boundary 2: still the first boundary's contents. -/
theorem keep2 (r : Ref sig .tc) (a0 : ∀ w, Pipeline.arrRef spec0 w ≠ r := by decide) :
    W2 m ρ c (Proc.devRef .tc r) = W1 m ρ c (Proc.devRef .tc r) :=
  W2_of_ne m ρ c r a0

/-- Neither written nor a launch's array up to boundary 3: still the first boundary's contents. -/
theorem keep3 (r : Ref sig .tc) (a0 : ∀ w, Pipeline.arrRef spec0 w ≠ r := by decide) (h1 : r ∉ written1 := by decide) :
    W3 m ρ c (Proc.devRef .tc r) = W1 m ρ c (Proc.devRef .tc r) :=
  (host1 m ρ c r h1).trans (keep2 m ρ c r a0)

/-- Neither written nor a launch's array up to boundary 4: still the first boundary's contents. -/
theorem keep4 (r : Ref sig .tc) (a0 : ∀ w, Pipeline.arrRef spec0 w ≠ r := by decide) (h1 : r ∉ written1 := by decide) (a1 : ∀ w, Pipeline.arrRef spec1 w ≠ r := by decide) :
    W4 m ρ c (Proc.devRef .tc r) = W1 m ρ c (Proc.devRef .tc r) :=
  (W4_of_ne m ρ c r a1).trans (keep3 m ρ c r a0 h1)

/-- Neither written nor a launch's array up to boundary 5: still the first boundary's contents. -/
theorem keep5 (r : Ref sig .tc) (a0 : ∀ w, Pipeline.arrRef spec0 w ≠ r := by decide) (h1 : r ∉ written1 := by decide) (a1 : ∀ w, Pipeline.arrRef spec1 w ≠ r := by decide) (h2 : r ∉ written2 := by decide) :
    W5 m ρ c (Proc.devRef .tc r) = W1 m ρ c (Proc.devRef .tc r) :=
  (host2 m ρ c r h2).trans (keep4 m ρ c r a0 h1 a1)

/-- Neither written nor a launch's array up to boundary 6: still the first boundary's contents. -/
theorem keep6 (r : Ref sig .tc) (a0 : ∀ w, Pipeline.arrRef spec0 w ≠ r := by decide) (h1 : r ∉ written1 := by decide) (a1 : ∀ w, Pipeline.arrRef spec1 w ≠ r := by decide) (h2 : r ∉ written2 := by decide) (a2 : ∀ w, Pipeline.arrRef spec2 w ≠ r := by decide) :
    W6 m ρ c (Proc.devRef .tc r) = W1 m ρ c (Proc.devRef .tc r) :=
  (W6_of_ne m ρ c r a2).trans (keep5 m ρ c r a0 h1 a1 h2)

/-- Neither written nor a launch's array up to boundary 7: still the first boundary's contents. -/
theorem keep7 (r : Ref sig .tc) (a0 : ∀ w, Pipeline.arrRef spec0 w ≠ r := by decide) (h1 : r ∉ written1 := by decide) (a1 : ∀ w, Pipeline.arrRef spec1 w ≠ r := by decide) (h2 : r ∉ written2 := by decide) (a2 : ∀ w, Pipeline.arrRef spec2 w ≠ r := by decide) (h3 : r ∉ written3 := by decide) :
    W7 m ρ c (Proc.devRef .tc r) = W1 m ρ c (Proc.devRef .tc r) :=
  (host3 m ρ c r h3).trans (keep6 m ρ c r a0 h1 a1 h2 a2)

/-- Neither written nor a launch's array up to boundary 8: still the first boundary's contents. -/
theorem keep8 (r : Ref sig .tc) (a0 : ∀ w, Pipeline.arrRef spec0 w ≠ r := by decide) (h1 : r ∉ written1 := by decide) (a1 : ∀ w, Pipeline.arrRef spec1 w ≠ r := by decide) (h2 : r ∉ written2 := by decide) (a2 : ∀ w, Pipeline.arrRef spec2 w ≠ r := by decide) (h3 : r ∉ written3 := by decide) (a3 : ∀ w, Pipeline.arrRef spec3 w ≠ r := by decide) :
    W8 m ρ c (Proc.devRef .tc r) = W1 m ρ c (Proc.devRef .tc r) :=
  (W8_of_ne m ρ c r a3).trans (keep7 m ρ c r a0 h1 a1 h2 a2 h3)

/-- Neither written nor a launch's array up to boundary 9: still the first boundary's contents. -/
theorem keep9 (r : Ref sig .tc) (a0 : ∀ w, Pipeline.arrRef spec0 w ≠ r := by decide) (h1 : r ∉ written1 := by decide) (a1 : ∀ w, Pipeline.arrRef spec1 w ≠ r := by decide) (h2 : r ∉ written2 := by decide) (a2 : ∀ w, Pipeline.arrRef spec2 w ≠ r := by decide) (h3 : r ∉ written3 := by decide) (a3 : ∀ w, Pipeline.arrRef spec3 w ≠ r := by decide) (h4 : r ∉ written4 := by decide) :
    W9 m ρ c (Proc.devRef .tc r) = W1 m ρ c (Proc.devRef .tc r) :=
  (host4 m ρ c r h4).trans (keep8 m ρ c r a0 h1 a1 h2 a2 h3 a3)

/-- Neither written nor a launch's array up to boundary 10: still the first boundary's contents. -/
theorem keep10 (r : Ref sig .tc) (a0 : ∀ w, Pipeline.arrRef spec0 w ≠ r := by decide) (h1 : r ∉ written1 := by decide) (a1 : ∀ w, Pipeline.arrRef spec1 w ≠ r := by decide) (h2 : r ∉ written2 := by decide) (a2 : ∀ w, Pipeline.arrRef spec2 w ≠ r := by decide) (h3 : r ∉ written3 := by decide) (a3 : ∀ w, Pipeline.arrRef spec3 w ≠ r := by decide) (h4 : r ∉ written4 := by decide) (a4 : ∀ w, Pipeline.arrRef spec4 w ≠ r := by decide) :
    W10 m ρ c (Proc.devRef .tc r) = W1 m ρ c (Proc.devRef .tc r) :=
  (W10_of_ne m ρ c r a4).trans (keep9 m ρ c r a0 h1 a1 h2 a2 h3 a3 h4)

/-- Neither written nor a launch's array up to boundary 11: still the first boundary's contents. -/
theorem keep11 (r : Ref sig .tc) (a0 : ∀ w, Pipeline.arrRef spec0 w ≠ r := by decide) (h1 : r ∉ written1 := by decide) (a1 : ∀ w, Pipeline.arrRef spec1 w ≠ r := by decide) (h2 : r ∉ written2 := by decide) (a2 : ∀ w, Pipeline.arrRef spec2 w ≠ r := by decide) (h3 : r ∉ written3 := by decide) (a3 : ∀ w, Pipeline.arrRef spec3 w ≠ r := by decide) (h4 : r ∉ written4 := by decide) (a4 : ∀ w, Pipeline.arrRef spec4 w ≠ r := by decide) (h5 : r ∉ written5 := by decide) :
    W11 m ρ c (Proc.devRef .tc r) = W1 m ρ c (Proc.devRef .tc r) :=
  (host5 m ρ c r h5).trans (keep10 m ρ c r a0 h1 a1 h2 a2 h3 a3 h4 a4)

/-- Neither written nor a launch's array up to boundary 12: still the first boundary's contents. -/
theorem keep12 (r : Ref sig .tc) (a0 : ∀ w, Pipeline.arrRef spec0 w ≠ r := by decide) (h1 : r ∉ written1 := by decide) (a1 : ∀ w, Pipeline.arrRef spec1 w ≠ r := by decide) (h2 : r ∉ written2 := by decide) (a2 : ∀ w, Pipeline.arrRef spec2 w ≠ r := by decide) (h3 : r ∉ written3 := by decide) (a3 : ∀ w, Pipeline.arrRef spec3 w ≠ r := by decide) (h4 : r ∉ written4 := by decide) (a4 : ∀ w, Pipeline.arrRef spec4 w ≠ r := by decide) (h5 : r ∉ written5 := by decide) (a5 : ∀ w, Pipeline.arrRef spec5 w ≠ r := by decide) :
    W12 m ρ c (Proc.devRef .tc r) = W1 m ρ c (Proc.devRef .tc r) :=
  (W12_of_ne m ρ c r a5).trans (keep11 m ρ c r a0 h1 a1 h2 a2 h3 a3 h4 a4 h5)

/-- Neither written nor a launch's array up to boundary 13: still the first boundary's contents. -/
theorem keep13 (r : Ref sig .tc) (a0 : ∀ w, Pipeline.arrRef spec0 w ≠ r := by decide) (h1 : r ∉ written1 := by decide) (a1 : ∀ w, Pipeline.arrRef spec1 w ≠ r := by decide) (h2 : r ∉ written2 := by decide) (a2 : ∀ w, Pipeline.arrRef spec2 w ≠ r := by decide) (h3 : r ∉ written3 := by decide) (a3 : ∀ w, Pipeline.arrRef spec3 w ≠ r := by decide) (h4 : r ∉ written4 := by decide) (a4 : ∀ w, Pipeline.arrRef spec4 w ≠ r := by decide) (h5 : r ∉ written5 := by decide) (a5 : ∀ w, Pipeline.arrRef spec5 w ≠ r := by decide) (h6 : r ∉ written6 := by decide) :
    W13 m ρ c (Proc.devRef .tc r) = W1 m ρ c (Proc.devRef .tc r) :=
  (host6 m ρ c r h6).trans (keep12 m ρ c r a0 h1 a1 h2 a2 h3 a3 h4 a4 h5 a5)

end Cert.KernelIdeal.Keep

end
-- ==== Proof.RegionMM0.lean ====
/-
  The value of the first feature transform: the launch that multiplies the node features, 5000 rows at a time, by the
  layer's weight matrix and adds a bias row.

  The grid has 20 points; point `t` reads rows `5000 t … 5000 t + 4999` of the features, the whole weight matrix and the
  whole bias row, and writes the same rows of the result. An entry `(p, q)` of a block is the sum over `k` of the
  block's `(p, k)` entry times the weight's `(k, q)` plus the bias row's `(0, q)`; since row `5000 t + p` of the result
  depends on row `5000 t + p` of the features only, and the 20 blocks of 5000 rows cover all 100000 rows, the array the
  launch leaves is the product with a bias row of the whole arrays.
-/
import proofs.«179287_j42434276884907_1_alg».proof.Proof.Gen.KernelIdeal.Frame
import proofs.«179287_j42434276884907_1_alg».proof.Proof.LibDenseLayer
import proofs.«179287_j42434276884907_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's contraction is the plain one: rows of the left operand against columns of the right. -/
theorem dot_plain : dot_S5000x64_S64x64_S5000x64_1_0_0_1_n_n = DotDims.plain 5000 64 64 := rfl

/-- What the body stores, at `(p, q)`: the sum over `k` of the feature block's `(p, k)` times the weight's `(k, q)`, plus the
    bias row's `(0, q)` (the roundings to bf16 are the identity on the extended reals). -/
theorem stored_apply (x0 : FVec Ideal S5000x64 .f32) (x1 : FVec Ideal S64x64 .f32) (x2 : FVec Ideal S1x64 .f32) (p : Fin 5000) (q : Fin 64) :
    k0_pay1 (F := Ideal) x0 x1 x2 (ix2 p q) = (∑ k : Fin 64, x0 (ix2 p k) * x1 (ix2 k q)) + x2 (ix2 (0 : Fin 1) q) := by
  unfold k0_pay1
  rw [addf_apply, shapeCast_self, broadcastTo_1b_ab_apply, dot_plain]
  exact congrArg (· + x2 (ix2 (0 : Fin 1) q))
    (PlainDot.matmul_zero_apply none (truncf .bf16 x0 bitsLt_bf16_f32) (truncf .bf16 x1 bitsLt_bf16_f32) p q)

/-- The index maps over the grid: the feature block and the result block move together along the rows; every other block
    index is zero. -/
theorem index_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 19 :=
  (by decide +kernel : ∀ t : Fin grid0.N, _)

/-- Every block of 5000 rows is some point's. -/
theorem index_onto : ∀ r : Fin 20, ∃ t : Fin cfg0.N, win0_3.index t = ![r.val, 0] :=
  (by decide +kernel : ∀ r : Fin 20, ∃ t : Fin grid0.N, win0_3.index t = ![r.val, 0])

/-- What point `t` writes back is block `t` of the product with a bias row of the arrays the launch finds. -/
theorem flushed_eq (c : Dev nD) (t : Fin cfg0.N) :
    (dat0 V c).flushed 3 t = ((cfg0.win 3).blk t).view.read (Elt Ideal)
      (Cert.Spec.affine (V c main_arg0) (V c main_arg3) (V c main_v13)) := by
  show (cfg0.win 3).cut (grid0.coords t) ((dat0 V c).after 3 t) = _
  rw [after0_3]
  unfold out0_3
  rw [View.canon_unit_zero origin]
  simp only [View.ld_unit_zero (S := S5000x64) origin, View.ld_unit_zero (S := S64x64) origin, View.ld_unit_zero (S := S1x64) origin]
  obtain ⟨e00, e01, e10, e11, e20, e21, e31, -⟩ := index_facts t
  funext j
  obtain ⟨p, q, rfl⟩ : ∃ (p : Fin 5000) (q : Fin 64), j = ix2 p q := ⟨j 0, j 1, eq_ix2 j⟩
  refine (stored_apply (iblk0 V c 0 t) (iblk0 V c 1 t) (iblk0 V c 2 t) p q).trans ?_
  show _ = Cert.Spec.affineAt (V c main_arg0) (V c main_arg3) (V c main_v13)
      (((cfg0.win 3).blk t).view.emb (ix2 p q) 0) (((cfg0.win 3).blk t).view.emb (ix2 p q) 1)
  unfold Cert.Spec.affineAt
  have hx : ∀ k : Fin 64, iblk0 V c 0 t (ix2 p k) = V c main_arg0 (ix2 (((cfg0.win 3).blk t).view.emb (ix2 p q) 0) k) := fun k => by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 64 + 1 * k.val = k.val; omega
  have hw : ∀ k : Fin 64, iblk0 V c 1 t (ix2 k q) = V c main_arg3 (ix2 k (((cfg0.win 3).blk t).view.emb (ix2 p q) 1)) := fun k => by
    show V c main_arg3 (((cfg0.win 1).blk t).view.emb (ix2 k q)) = _
    refine congrArg (V c main_arg3) (funext fun a => Fin.ext ?_)
    match a with
    | ⟨0, _⟩ => show win0_1.index t (0 : Fin 2) * 64 + 1 * k.val = k.val; omega
    | ⟨1, _⟩ => show win0_1.index t (1 : Fin 2) * 64 + 1 * q.val = win0_3.index t (1 : Fin 2) * 64 + 1 * q.val; omega
  have hb : iblk0 V c 2 t (ix2 (0 : Fin 1) q) = V c main_v13 (ix2 (0 : Fin 1) (((cfg0.win 3).blk t).view.emb (ix2 p q) 1)) := by
    show V c main_v13 (((cfg0.win 2).blk t).view.emb (ix2 (0 : Fin 1) q)) = _
    refine congrArg (V c main_v13) (funext fun a => Fin.ext ?_)
    match a with
    | ⟨0, _⟩ => show win0_2.index t (0 : Fin 2) * 1 + 1 * 0 = 0; omega
    | ⟨1, _⟩ => show win0_2.index t (1 : Fin 2) * 64 + 1 * q.val = win0_3.index t (1 : Fin 2) * 64 + 1 * q.val; omega
  rw [hb]
  exact congrArg (· + _) (Finset.sum_congr rfl fun k _ => by rw [hx k, hw k])

/-- An index of the result is in point `t`'s block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v14).slice (win0_3.rect t)).set ↔ _
  rw [View.set_slice_whole, Rect.mem_set_unit]
  exact Iff.rfl

/-- The 20 blocks cover the result: row `r` is in the block of point `r / 5000`. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := index_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The array the launch leaves: the product with a bias row of the arrays it finds. -/
theorem value (c : Dev nD) :
    (dat0 V c).arrAt 3 cfg0.N = Cert.Spec.affine (V c main_arg0) (V c main_arg3) (V c main_v13) :=
  (dat0 V c).arrAt_eq_of_cover 3 _ (fun t _ => flushed_eq V c t) cover

end Cert.KernelIdeal.Region0

end
-- ==== Proof.RegionComb1.lean ====
/-
  The value of the first layer's combine step: the launch that adds to the aggregated messages the node's own
  transformed features scaled by its normalisation factor, and the bias, and takes the positive part.

  The grid has 20 points; point `t` reads rows `5000 t … 5000 t + 4999` of the aggregate, of the features and of the
  factor column, and the whole bias row, and writes the same rows of the result. The body is pointwise: entry `(p, q)` of
  a block is the positive part of `(agg (p, q) + h (p, q) · d (p, 0)) + b (0, q)`. Row `5000 t + p` of the result depends on
  row `5000 t + p` of the operands only, and the 20 blocks of 5000 rows cover all 100000 rows, so the array the launch
  leaves is that function of the whole arrays.
-/
import proofs.«179287_j42434276884907_1_alg».proof.Proof.Gen.KernelIdeal.Frame
import proofs.«179287_j42434276884907_1_alg».proof.Proof.LibDenseLayer
import proofs.«179287_j42434276884907_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- What the body stores, at `(p, q)`, from the feature block `h`, the factor column `d`, the aggregate block `agg` and
    the bias row `b`. -/
theorem stored_apply (h : FVec Ideal S5000x64 .f32) (d : FVec Ideal S5000x1 .f32) (agg : FVec Ideal S5000x64 .f32)
    (b : FVec Ideal S1x64 .f32) (p : Fin 5000) (q : Fin 64) :
    k1_pay1 (F := Ideal) h d agg b (ix2 p q)
      = max ((agg (ix2 p q) + h (ix2 p q) * d (ix2 p (0 : Fin 1))) + b (ix2 (0 : Fin 1) q)) 0 := by
  unfold k1_pay1
  rw [maximumf_apply, addf_apply, addf_apply, mulf_apply, shapeCast_self, shapeCast_self, shapeCast_self, shapeCast_self,
    broadcastTo_1b_ab_apply, Keepdims.broadcastTo_a1_ab_apply, broadcast_apply]
  exact congrArg (max _) Ideal.ofBits_zero_f32

/-- The index maps over the grid: the aggregate, feature, factor and result blocks move together along the rows; every
    other block index is zero. -/
theorem index_facts : ∀ t : Fin cfg1.N, win1_0.index t (0 : Fin 2) = win1_4.index t (0 : Fin 2)
    ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 19 :=
  (by decide +kernel : ∀ t : Fin grid1.N, _)

/-- Every block of 5000 rows is some point's. -/
theorem index_onto : ∀ r : Fin 20, ∃ t : Fin cfg1.N, win1_4.index t = ![r.val, 0] :=
  (by decide +kernel : ∀ r : Fin 20, ∃ t : Fin grid1.N, win1_4.index t = ![r.val, 0])

/-- What point `t` writes back is block `t` of the combine step of the arrays the launch finds. -/
theorem flushed_eq (c : Dev nD) (t : Fin cfg1.N) :
    (dat1 V c).flushed 4 t = ((cfg1.win 4).blk t).view.read (Elt Ideal)
      (Cert.Spec.combineRelu (V c main_v42) (V c main_v14) (V c main_v44) (V c main_v43)) := by
  show (cfg1.win 4).cut (grid1.coords t) ((dat1 V c).after 4 t) = _
  rw [after1_4]
  unfold out1_4
  rw [View.canon_unit_zero origin]
  simp only [View.ld_unit_zero (S := S5000x64) origin, View.ld_unit_zero (S := S5000x1) origin, View.ld_unit_zero (S := S1x64) origin]
  obtain ⟨e00, e01, e10, e11, e20, e21, e30, e31, e41, -⟩ := index_facts t
  funext j
  obtain ⟨p, q, rfl⟩ : ∃ (p : Fin 5000) (q : Fin 64), j = ix2 p q := ⟨j 0, j 1, eq_ix2 j⟩
  refine (stored_apply (iblk1 V c 1 t) (iblk1 V c 2 t) (iblk1 V c 0 t) (iblk1 V c 3 t) p q).trans ?_
  show _ = max (Cert.Spec.combineAt (V c main_v42) (V c main_v14) (V c main_v44) (V c main_v43)
      (((cfg1.win 4).blk t).view.emb (ix2 p q) 0) (((cfg1.win 4).blk t).view.emb (ix2 p q) 1)) 0
  unfold Cert.Spec.combineAt
  have hagg : iblk1 V c 0 t (ix2 p q) = V c main_v42 (ix2 (((cfg1.win 4).blk t).view.emb (ix2 p q) 0) (((cfg1.win 4).blk t).view.emb (ix2 p q) 1)) := by
    show V c main_v42 (((cfg1.win 0).blk t).view.emb (ix2 p q)) = _
    refine congrArg (V c main_v42) (funext fun a => Fin.ext ?_)
    match a with
    | ⟨0, _⟩ => show win1_0.index t (0 : Fin 2) * 5000 + 1 * p.val = win1_4.index t (0 : Fin 2) * 5000 + 1 * p.val; omega
    | ⟨1, _⟩ => show win1_0.index t (1 : Fin 2) * 64 + 1 * q.val = win1_4.index t (1 : Fin 2) * 64 + 1 * q.val; omega
  have hh : iblk1 V c 1 t (ix2 p q) = V c main_v14 (ix2 (((cfg1.win 4).blk t).view.emb (ix2 p q) 0) (((cfg1.win 4).blk t).view.emb (ix2 p q) 1)) := by
    show V c main_v14 (((cfg1.win 1).blk t).view.emb (ix2 p q)) = _
    refine congrArg (V c main_v14) (funext fun a => Fin.ext ?_)
    match a with
    | ⟨0, _⟩ => show win1_1.index t (0 : Fin 2) * 5000 + 1 * p.val = win1_4.index t (0 : Fin 2) * 5000 + 1 * p.val; omega
    | ⟨1, _⟩ => show win1_1.index t (1 : Fin 2) * 64 + 1 * q.val = win1_4.index t (1 : Fin 2) * 64 + 1 * q.val; omega
  have hd : iblk1 V c 2 t (ix2 p (0 : Fin 1)) = V c main_v44 (ix2 (((cfg1.win 4).blk t).view.emb (ix2 p q) 0) (0 : Fin 1)) := by
    show V c main_v44 (((cfg1.win 2).blk t).view.emb (ix2 p (0 : Fin 1))) = _
    refine congrArg (V c main_v44) (funext fun a => Fin.ext ?_)
    match a with
    | ⟨0, _⟩ => show win1_2.index t (0 : Fin 2) * 5000 + 1 * p.val = win1_4.index t (0 : Fin 2) * 5000 + 1 * p.val; omega
    | ⟨1, _⟩ => show win1_2.index t (1 : Fin 2) * 1 + 1 * 0 = 0; omega
  have hb : iblk1 V c 3 t (ix2 (0 : Fin 1) q) = V c main_v43 (ix2 (0 : Fin 1) (((cfg1.win 4).blk t).view.emb (ix2 p q) 1)) := by
    show V c main_v43 (((cfg1.win 3).blk t).view.emb (ix2 (0 : Fin 1) q)) = _
    refine congrArg (V c main_v43) (funext fun a => Fin.ext ?_)
    match a with
    | ⟨0, _⟩ => show win1_3.index t (0 : Fin 2) * 1 + 1 * 0 = 0; omega
    | ⟨1, _⟩ => show win1_3.index t (1 : Fin 2) * 64 + 1 * q.val = win1_4.index t (1 : Fin 2) * 64 + 1 * q.val; omega
  rw [hagg, hh, hd, hb]

/-- An index of the result is in point `t`'s block iff each coordinate is in the block's range on its axis. -/
theorem mem_blk (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v45).slice (win1_4.rect t)).set ↔ _
  rw [View.set_slice_whole, Rect.mem_set_unit]
  exact Iff.rfl

/-- The 20 blocks cover the result: row `r` is in the block of point `r / 5000`. -/
theorem cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := index_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- The array the launch leaves: the combine step of the arrays it finds. -/
theorem value (c : Dev nD) :
    (dat1 V c).arrAt 4 cfg1.N = Cert.Spec.combineRelu (V c main_v42) (V c main_v14) (V c main_v44) (V c main_v43) :=
  (dat1 V c).arrAt_eq_of_cover 4 _ (fun t _ => flushed_eq V c t) cover

end Cert.KernelIdeal.Region1

end
-- ==== Proof.Fold1.lean ====
/-
  The first layer, followed through the idealized kernel's boundaries.

  Before the first launch the host computes, from the edge list, the source and destination vectors, the inverse square
  root of the degrees and its square — the very operations the reference applies — and a zero bias row. The first launch
  leaves the node features times the first weight matrix; the host stretch after it gathers, scales and scatter-adds the
  messages exactly as the reference does; the second launch adds the self term and the bias and takes the positive
  part. At each boundary the live buffers are the reference's own stages of the same arguments.
-/
import proofs.«179287_j42434276884907_1_alg».proof.Proof.Gen.KernelIdeal.Frame
import proofs.«179287_j42434276884907_1_alg».proof.Proof.Gen.ReferenceIdeal.Read
import proofs.«179287_j42434276884907_1_alg».proof.Proof.LibDenseLayerLaws
import proofs.«179287_j42434276884907_1_alg».proof.Proof.Keep
import Idealize.ShloMosaic.Lib.StableHlo.Run
import proofs.«179287_j42434276884907_1_alg».proof.Proof.RegionMM0
import proofs.«179287_j42434276884907_1_alg».proof.Proof.RegionComb1

set_option maxRecDepth 16384

noncomputable section

namespace Cert.KernelIdeal.Fold1

open Cert.KernelIdeal Cert.KernelIdeal.Gen
open Idealize.ShloMosaic Idealize.ShloMosaic.TcCoe Idealize.ShloMosaic.ValueIdx Idealize.SL.Sem Idealize.ShloMosaic.StableHlo
open Cert.KernelIdeal.Keep
open Cert.ReferenceIdeal.Read (val_main_v1 val_main_v3 val_main_v4 val_main_v11 val_main_v39 val_main_v40 val_main_v48 val_main_v49 val_main_v84 val_main_v93 val_main_v94 val_main_v129 val_main_v137 val_main_v149 val_main_v153)

variable (m : (ℓ : Loc nD τ sig) → Buf (Elt Ideal) ℓ) (ρ : Dev nD → PrngReg) (c : Dev nD)

/-! ## Before the first launch -/

theorem b1_src : W1 m ρ c (Proc.devRef .tc main_v1) = val_main_v1 (F := Ideal) (m ((c : Thread nD τ).loc main_arg1)) := by
  show StableHlo.after hostOps0 (W0 m ρ c) (Proc.devRef .tc main_v1) = _
  after_results <;> rfl
theorem b1_dst : W1 m ρ c (Proc.devRef .tc main_v3) = val_main_v3 (F := Ideal) (m ((c : Thread nD τ).loc main_arg1)) := by
  show StableHlo.after hostOps0 (W0 m ρ c) (Proc.devRef .tc main_v3) = _
  after_results <;> rfl
/-- The inverse square root of the degrees (one more than the number of edges into each node). -/
theorem b1_dinv : W1 m ρ c (Proc.devRef .tc main_v10) = val_main_v11 (F := Ideal) (m ((c : Thread nD τ).loc main_arg1)) := by
  show StableHlo.after hostOps0 (W0 m ρ c) (Proc.devRef .tc main_v10) = _
  after_results <;> rfl
/-- Its square. -/
theorem b1_dinv2 : W1 m ρ c (Proc.devRef .tc main_v11) = val_main_v40 (F := Ideal) (m ((c : Thread nD τ).loc main_arg1)) := by
  show StableHlo.after hostOps0 (W0 m ρ c) (Proc.devRef .tc main_v11) = _
  after_results <;> rfl
/-- The zero bias row of the feature transforms. -/
theorem b1_zero : W1 m ρ c (Proc.devRef .tc main_v13)
    = shapeCast S1x64 (broadcastInDim S64 ![] bcast_S_S64 (constant (F := Ideal) S_ .f32 0x00000000#32)) shapeCasts_S64_S1x64 := by
  show StableHlo.after hostOps0 (W0 m ρ c) (Proc.devRef .tc main_v13) = _
  after_results <;> rfl
theorem b1_arg0 : W1 m ρ c (Proc.devRef .tc main_arg0) = (m ((c : Thread nD τ).loc main_arg0)) := by
  show StableHlo.after hostOps0 (W0 m ρ c) (Proc.devRef .tc main_arg0) = _
  after_results <;> rfl
theorem b1_arg2 : W1 m ρ c (Proc.devRef .tc main_arg2) = (m ((c : Thread nD τ).loc main_arg2)) := by
  show StableHlo.after hostOps0 (W0 m ρ c) (Proc.devRef .tc main_arg2) = _
  after_results <;> rfl
theorem b1_arg3 : W1 m ρ c (Proc.devRef .tc main_arg3) = (m ((c : Thread nD τ).loc main_arg3)) := by
  show StableHlo.after hostOps0 (W0 m ρ c) (Proc.devRef .tc main_arg3) = _
  after_results <;> rfl
theorem b1_arg4 : W1 m ρ c (Proc.devRef .tc main_arg4) = (m ((c : Thread nD τ).loc main_arg4)) := by
  show StableHlo.after hostOps0 (W0 m ρ c) (Proc.devRef .tc main_arg4) = _
  after_results <;> rfl
theorem b1_arg5 : W1 m ρ c (Proc.devRef .tc main_arg5) = (m ((c : Thread nD τ).loc main_arg5)) := by
  show StableHlo.after hostOps0 (W0 m ρ c) (Proc.devRef .tc main_arg5) = _
  after_results <;> rfl
theorem b1_arg6 : W1 m ρ c (Proc.devRef .tc main_arg6) = (m ((c : Thread nD τ).loc main_arg6)) := by
  show StableHlo.after hostOps0 (W0 m ρ c) (Proc.devRef .tc main_arg6) = _
  after_results <;> rfl
theorem b1_arg7 : W1 m ρ c (Proc.devRef .tc main_arg7) = (m ((c : Thread nD τ).loc main_arg7)) := by
  show StableHlo.after hostOps0 (W0 m ρ c) (Proc.devRef .tc main_arg7) = _
  after_results <;> rfl
theorem b1_arg8 : W1 m ρ c (Proc.devRef .tc main_arg8) = (m ((c : Thread nD τ).loc main_arg8)) := by
  show StableHlo.after hostOps0 (W0 m ρ c) (Proc.devRef .tc main_arg8) = _
  after_results <;> rfl
theorem b1_arg9 : W1 m ρ c (Proc.devRef .tc main_arg9) = (m ((c : Thread nD τ).loc main_arg9)) := by
  show StableHlo.after hostOps0 (W0 m ρ c) (Proc.devRef .tc main_arg9) = _
  after_results <;> rfl
theorem b1_arg10 : W1 m ρ c (Proc.devRef .tc main_arg10) = (m ((c : Thread nD τ).loc main_arg10)) := by
  show StableHlo.after hostOps0 (W0 m ρ c) (Proc.devRef .tc main_arg10) = _
  after_results <;> rfl

/-! ## After the first launch: the features times the first weight matrix -/

theorem b2_h : W2 m ρ c (Proc.devRef .tc main_v14) = val_main_v4 (F := Ideal) (m ((c : Thread nD τ).loc main_arg0)) (m ((c : Thread nD τ).loc main_arg3)) := by
  refine (W2_arr m ρ c 3).trans ((Region0.value (V1 m ρ) c).trans ?_)
  show Cert.Spec.affine (W1 m ρ c (Proc.devRef .tc main_arg0)) (W1 m ρ c (Proc.devRef .tc main_arg3)) (W1 m ρ c (Proc.devRef .tc main_v13)) = _
  rw [b1_arg0 m ρ c, b1_arg3 m ρ c, b1_zero m ρ c]
  exact (Cert.DenseLaws.affine_zero _ _ _ (fun q => Cert.DenseLaws.zeroRow_apply _ _ 0 q)).trans rfl

theorem b2_src : W2 m ρ c (Proc.devRef .tc main_v1) = val_main_v1 (F := Ideal) (m ((c : Thread nD τ).loc main_arg1)) := (keep2 m ρ c main_v1).trans (b1_src m ρ c)
theorem b2_dst : W2 m ρ c (Proc.devRef .tc main_v3) = val_main_v3 (F := Ideal) (m ((c : Thread nD τ).loc main_arg1)) := (keep2 m ρ c main_v3).trans (b1_dst m ρ c)
theorem b2_dinv : W2 m ρ c (Proc.devRef .tc main_v10) = val_main_v11 (F := Ideal) (m ((c : Thread nD τ).loc main_arg1)) := (keep2 m ρ c main_v10).trans (b1_dinv m ρ c)
theorem b2_dinv2 : W2 m ρ c (Proc.devRef .tc main_v11) = val_main_v40 (F := Ideal) (m ((c : Thread nD τ).loc main_arg1)) := (keep2 m ρ c main_v11).trans (b1_dinv2 m ρ c)
theorem b2_arg4 : W2 m ρ c (Proc.devRef .tc main_arg4) = (m ((c : Thread nD τ).loc main_arg4)) := (keep2 m ρ c main_arg4).trans (b1_arg4 m ρ c)

/-! ## After the message passing of the first layer -/

set_option maxHeartbeats 4000000 in
/-- The aggregated messages: the transformed features gathered at the sources, scaled by the two ends' factors, summed
    into the destinations — the same gathers and scatter as the reference's, of equal operands. -/
theorem b3_agg : W3 m ρ c (Proc.devRef .tc main_v42) = val_main_v39 (F := Ideal) (m ((c : Thread nD τ).loc main_arg0)) (m ((c : Thread nD τ).loc main_arg1)) (m ((c : Thread nD τ).loc main_arg3)) := by
  show StableHlo.after hostOps1 (W2 m ρ c) (Proc.devRef .tc main_v42) = _
  after_results_simp
  rw [b2_h m ρ c, b2_src m ρ c, b2_dst m ρ c, b2_dinv m ρ c]
  rfl
set_option maxHeartbeats 4000000 in
theorem b3_bias : W3 m ρ c (Proc.devRef .tc main_v43) = shapeCast S1x64 (m ((c : Thread nD τ).loc main_arg4)) shapeCasts_S64_S1x64 := by
  show StableHlo.after hostOps1 (W2 m ρ c) (Proc.devRef .tc main_v43) = _
  after_results_simp
  rw [b2_arg4 m ρ c]
  rfl
set_option maxHeartbeats 4000000 in
theorem b3_col : W3 m ρ c (Proc.devRef .tc main_v44) = shapeCast S100000x1 (val_main_v40 (F := Ideal) (m ((c : Thread nD τ).loc main_arg1))) shapeCasts_S100000_S100000x1 := by
  show StableHlo.after hostOps1 (W2 m ρ c) (Proc.devRef .tc main_v44) = _
  after_results_simp
  rw [b2_dinv2 m ρ c]
  rfl
theorem b3_h : W3 m ρ c (Proc.devRef .tc main_v14) = val_main_v4 (F := Ideal) (m ((c : Thread nD τ).loc main_arg0)) (m ((c : Thread nD τ).loc main_arg3)) :=
  (host1 m ρ c main_v14).trans (b2_h m ρ c)

/-! ## After the second launch: the first layer's output -/

theorem b4_out : W4 m ρ c (Proc.devRef .tc main_v45) = val_main_v48 (F := Ideal) (m ((c : Thread nD τ).loc main_arg0)) (m ((c : Thread nD τ).loc main_arg1)) (m ((c : Thread nD τ).loc main_arg3)) (m ((c : Thread nD τ).loc main_arg4)) := by
  refine (W4_arr m ρ c 4).trans ((Region1.value (V3 m ρ) c).trans ?_)
  show Cert.Spec.combineRelu (W3 m ρ c (Proc.devRef .tc main_v42)) (W3 m ρ c (Proc.devRef .tc main_v14)) (W3 m ρ c (Proc.devRef .tc main_v44)) (W3 m ρ c (Proc.devRef .tc main_v43)) = _
  rw [b3_agg m ρ c, b3_h m ρ c, b3_col m ρ c, b3_bias m ρ c]
  exact (Cert.DenseLaws.combineRelu_host _ _ _ _ _ _ Cert.ReferenceIdeal.Gen.bcast_S100000_S100000x1_0 Cert.ReferenceIdeal.Gen.bcast_S100000x1_S100000x64_0_1
    Cert.ReferenceIdeal.Gen.bcast_S64_S1x64_1 Cert.ReferenceIdeal.Gen.bcast_S1x64_S100000x64_0_1 Cert.ReferenceIdeal.Gen.bcast_S_S100000x64).trans rfl

end Cert.KernelIdeal.Fold1

end
-- ==== Proof.RegionMM2.lean ====
/-
  The value of the second feature transform: the launch that multiplies the node features, 5000 rows at a time, by the
  layer's weight matrix and adds a bias row.

  The grid has 20 points; point `t` reads rows `5000 t … 5000 t + 4999` of the features, the whole weight matrix and the
  whole bias row, and writes the same rows of the result. An entry `(p, q)` of a block is the sum over `k` of the
  block's `(p, k)` entry times the weight's `(k, q)` plus the bias row's `(0, q)`; since row `5000 t + p` of the result
  depends on row `5000 t + p` of the features only, and the 20 blocks of 5000 rows cover all 100000 rows, the array the
  launch leaves is the product with a bias row of the whole arrays.
-/
import proofs.«179287_j42434276884907_1_alg».proof.Proof.Gen.KernelIdeal.Frame
import proofs.«179287_j42434276884907_1_alg».proof.Proof.LibDenseLayer
import proofs.«179287_j42434276884907_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's contraction is the plain one: rows of the left operand against columns of the right. -/
theorem dot_plain : dot_S5000x64_S64x64_S5000x64_1_0_0_1_n_n = DotDims.plain 5000 64 64 := rfl

/-- What the body stores, at `(p, q)`: the sum over `k` of the feature block's `(p, k)` times the weight's `(k, q)`, plus the
    bias row's `(0, q)` (the roundings to bf16 are the identity on the extended reals). -/
theorem stored_apply (x0 : FVec Ideal S5000x64 .f32) (x1 : FVec Ideal S64x64 .f32) (x2 : FVec Ideal S1x64 .f32) (p : Fin 5000) (q : Fin 64) :
    k2_pay1 (F := Ideal) x0 x1 x2 (ix2 p q) = (∑ k : Fin 64, x0 (ix2 p k) * x1 (ix2 k q)) + x2 (ix2 (0 : Fin 1) q) := by
  unfold k2_pay1
  rw [addf_apply, shapeCast_self, shapeCast_self, broadcastTo_1b_ab_apply, dot_plain]
  exact congrArg (· + x2 (ix2 (0 : Fin 1) q))
    (PlainDot.matmul_zero_apply none (truncf .bf16 x0 bitsLt_bf16_f32) (truncf .bf16 x1 bitsLt_bf16_f32) p q)

/-- The index maps over the grid: the feature block and the result block move together along the rows; every other block
    index is zero. -/
theorem index_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 19 :=
  (by decide +kernel : ∀ t : Fin grid2.N, _)

/-- Every block of 5000 rows is some point's. -/
theorem index_onto : ∀ r : Fin 20, ∃ t : Fin cfg2.N, win2_3.index t = ![r.val, 0] :=
  (by decide +kernel : ∀ r : Fin 20, ∃ t : Fin grid2.N, win2_3.index t = ![r.val, 0])

/-- What point `t` writes back is block `t` of the product with a bias row of the arrays the launch finds. -/
theorem flushed_eq (c : Dev nD) (t : Fin cfg2.N) :
    (dat2 V c).flushed 3 t = ((cfg2.win 3).blk t).view.read (Elt Ideal)
      (Cert.Spec.affine (V c main_v45) (V c main_arg5) (V c main_v47)) := by
  show (cfg2.win 3).cut (grid2.coords t) ((dat2 V c).after 3 t) = _
  rw [after2_3]
  unfold out2_3
  rw [View.canon_unit_zero origin]
  simp only [View.ld_unit_zero (S := S5000x64) origin, View.ld_unit_zero (S := S64x64) origin, View.ld_unit_zero (S := S1x64) origin]
  obtain ⟨e00, e01, e10, e11, e20, e21, e31, -⟩ := index_facts t
  funext j
  obtain ⟨p, q, rfl⟩ : ∃ (p : Fin 5000) (q : Fin 64), j = ix2 p q := ⟨j 0, j 1, eq_ix2 j⟩
  refine (stored_apply (iblk2 V c 0 t) (iblk2 V c 1 t) (iblk2 V c 2 t) p q).trans ?_
  show _ = Cert.Spec.affineAt (V c main_v45) (V c main_arg5) (V c main_v47)
      (((cfg2.win 3).blk t).view.emb (ix2 p q) 0) (((cfg2.win 3).blk t).view.emb (ix2 p q) 1)
  unfold Cert.Spec.affineAt
  have hx : ∀ k : Fin 64, iblk2 V c 0 t (ix2 p k) = V c main_v45 (ix2 (((cfg2.win 3).blk t).view.emb (ix2 p q) 0) k) := fun k => by
    show V c main_v45 (((cfg2.win 0).blk t).view.emb (ix2 p k)) = _
    refine congrArg (V c main_v45) (funext fun a => Fin.ext ?_)
    match a with
    | ⟨0, _⟩ => show win2_0.index t (0 : Fin 2) * 5000 + 1 * p.val = win2_3.index t (0 : Fin 2) * 5000 + 1 * p.val; omega
    | ⟨1, _⟩ => show win2_0.index t (1 : Fin 2) * 64 + 1 * k.val = k.val; omega
  have hw : ∀ k : Fin 64, iblk2 V c 1 t (ix2 k q) = V c main_arg5 (ix2 k (((cfg2.win 3).blk t).view.emb (ix2 p q) 1)) := fun k => by
    show V c main_arg5 (((cfg2.win 1).blk t).view.emb (ix2 k q)) = _
    refine congrArg (V c main_arg5) (funext fun a => Fin.ext ?_)
    match a with
    | ⟨0, _⟩ => show win2_1.index t (0 : Fin 2) * 64 + 1 * k.val = k.val; omega
    | ⟨1, _⟩ => show win2_1.index t (1 : Fin 2) * 64 + 1 * q.val = win2_3.index t (1 : Fin 2) * 64 + 1 * q.val; omega
  have hb : iblk2 V c 2 t (ix2 (0 : Fin 1) q) = V c main_v47 (ix2 (0 : Fin 1) (((cfg2.win 3).blk t).view.emb (ix2 p q) 1)) := by
    show V c main_v47 (((cfg2.win 2).blk t).view.emb (ix2 (0 : Fin 1) q)) = _
    refine congrArg (V c main_v47) (funext fun a => Fin.ext ?_)
    match a with
    | ⟨0, _⟩ => show win2_2.index t (0 : Fin 2) * 1 + 1 * 0 = 0; omega
    | ⟨1, _⟩ => show win2_2.index t (1 : Fin 2) * 64 + 1 * q.val = win2_3.index t (1 : Fin 2) * 64 + 1 * q.val; omega
  rw [hb]
  exact congrArg (· + _) (Finset.sum_congr rfl fun k _ => by rw [hx k, hw k])

/-- An index of the result is in point `t`'s block iff each coordinate is in the block's range on its axis. -/
theorem mem_blk (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v48).slice (win2_3.rect t)).set ↔ _
  rw [View.set_slice_whole, Rect.mem_set_unit]
  exact Iff.rfl

/-- The 20 blocks cover the result: row `r` is in the block of point `r / 5000`. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := index_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- The array the launch leaves: the product with a bias row of the arrays it finds. -/
theorem value (c : Dev nD) :
    (dat2 V c).arrAt 3 cfg2.N = Cert.Spec.affine (V c main_v45) (V c main_arg5) (V c main_v47) :=
  (dat2 V c).arrAt_eq_of_cover 3 _ (fun t _ => flushed_eq V c t) cover

end Cert.KernelIdeal.Region2

end
-- ==== Proof.RegionComb3.lean ====
/-
  The value of the second layer's combine step: the launch that adds to the aggregated messages the node's own
  transformed features scaled by its normalisation factor, and the bias, and takes the positive part.

  The grid has 20 points; point `t` reads rows `5000 t … 5000 t + 4999` of the aggregate, of the features and of the
  factor column, and the whole bias row, and writes the same rows of the result. The body is pointwise: entry `(p, q)` of
  a block is the positive part of `(agg (p, q) + h (p, q) · d (p, 0)) + b (0, q)`. Row `5000 t + p` of the result depends on
  row `5000 t + p` of the operands only, and the 20 blocks of 5000 rows cover all 100000 rows, so the array the launch
  leaves is that function of the whole arrays.
-/
import proofs.«179287_j42434276884907_1_alg».proof.Proof.Gen.KernelIdeal.Frame
import proofs.«179287_j42434276884907_1_alg».proof.Proof.LibDenseLayer
import proofs.«179287_j42434276884907_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- What the body stores, at `(p, q)`, from the feature block `h`, the factor column `d`, the aggregate block `agg` and
    the bias row `b`. -/
theorem stored_apply (h : FVec Ideal S5000x64 .f32) (d : FVec Ideal S5000x1 .f32) (agg : FVec Ideal S5000x64 .f32)
    (b : FVec Ideal S1x64 .f32) (p : Fin 5000) (q : Fin 64) :
    k3_pay1 (F := Ideal) h d agg b (ix2 p q)
      = max ((agg (ix2 p q) + h (ix2 p q) * d (ix2 p (0 : Fin 1))) + b (ix2 (0 : Fin 1) q)) 0 := by
  unfold k3_pay1
  rw [maximumf_apply, addf_apply, addf_apply, mulf_apply, shapeCast_self, shapeCast_self, shapeCast_self, shapeCast_self,
    broadcastTo_1b_ab_apply, Keepdims.broadcastTo_a1_ab_apply, broadcast_apply]
  exact congrArg (max _) Ideal.ofBits_zero_f32

/-- The index maps over the grid: the aggregate, feature, factor and result blocks move together along the rows; every
    other block index is zero. -/
theorem index_facts : ∀ t : Fin cfg3.N, win3_0.index t (0 : Fin 2) = win3_4.index t (0 : Fin 2)
    ∧ win3_0.index t (1 : Fin 2) = 0
    ∧ win3_1.index t (0 : Fin 2) = win3_4.index t (0 : Fin 2) ∧ win3_1.index t (1 : Fin 2) = 0
    ∧ win3_2.index t (0 : Fin 2) = win3_4.index t (0 : Fin 2) ∧ win3_2.index t (1 : Fin 2) = 0
    ∧ win3_3.index t (0 : Fin 2) = 0 ∧ win3_3.index t (1 : Fin 2) = 0
    ∧ win3_4.index t (1 : Fin 2) = 0 ∧ win3_4.index t (0 : Fin 2) ≤ 19 :=
  (by decide +kernel : ∀ t : Fin grid3.N, _)

/-- Every block of 5000 rows is some point's. -/
theorem index_onto : ∀ r : Fin 20, ∃ t : Fin cfg3.N, win3_4.index t = ![r.val, 0] :=
  (by decide +kernel : ∀ r : Fin 20, ∃ t : Fin grid3.N, win3_4.index t = ![r.val, 0])

/-- What point `t` writes back is block `t` of the combine step of the arrays the launch finds. -/
theorem flushed_eq (c : Dev nD) (t : Fin cfg3.N) :
    (dat3 V c).flushed 4 t = ((cfg3.win 4).blk t).view.read (Elt Ideal)
      (Cert.Spec.combineRelu (V c main_v76) (V c main_v48) (V c main_v78) (V c main_v77)) := by
  show (cfg3.win 4).cut (grid3.coords t) ((dat3 V c).after 4 t) = _
  rw [after3_4]
  unfold out3_4
  rw [View.canon_unit_zero origin]
  simp only [View.ld_unit_zero (S := S5000x64) origin, View.ld_unit_zero (S := S5000x1) origin, View.ld_unit_zero (S := S1x64) origin]
  obtain ⟨e00, e01, e10, e11, e20, e21, e30, e31, e41, -⟩ := index_facts t
  funext j
  obtain ⟨p, q, rfl⟩ : ∃ (p : Fin 5000) (q : Fin 64), j = ix2 p q := ⟨j 0, j 1, eq_ix2 j⟩
  refine (stored_apply (iblk3 V c 1 t) (iblk3 V c 2 t) (iblk3 V c 0 t) (iblk3 V c 3 t) p q).trans ?_
  show _ = max (Cert.Spec.combineAt (V c main_v76) (V c main_v48) (V c main_v78) (V c main_v77)
      (((cfg3.win 4).blk t).view.emb (ix2 p q) 0) (((cfg3.win 4).blk t).view.emb (ix2 p q) 1)) 0
  unfold Cert.Spec.combineAt
  have hagg : iblk3 V c 0 t (ix2 p q) = V c main_v76 (ix2 (((cfg3.win 4).blk t).view.emb (ix2 p q) 0) (((cfg3.win 4).blk t).view.emb (ix2 p q) 1)) := by
    show V c main_v76 (((cfg3.win 0).blk t).view.emb (ix2 p q)) = _
    refine congrArg (V c main_v76) (funext fun a => Fin.ext ?_)
    match a with
    | ⟨0, _⟩ => show win3_0.index t (0 : Fin 2) * 5000 + 1 * p.val = win3_4.index t (0 : Fin 2) * 5000 + 1 * p.val; omega
    | ⟨1, _⟩ => show win3_0.index t (1 : Fin 2) * 64 + 1 * q.val = win3_4.index t (1 : Fin 2) * 64 + 1 * q.val; omega
  have hh : iblk3 V c 1 t (ix2 p q) = V c main_v48 (ix2 (((cfg3.win 4).blk t).view.emb (ix2 p q) 0) (((cfg3.win 4).blk t).view.emb (ix2 p q) 1)) := by
    show V c main_v48 (((cfg3.win 1).blk t).view.emb (ix2 p q)) = _
    refine congrArg (V c main_v48) (funext fun a => Fin.ext ?_)
    match a with
    | ⟨0, _⟩ => show win3_1.index t (0 : Fin 2) * 5000 + 1 * p.val = win3_4.index t (0 : Fin 2) * 5000 + 1 * p.val; omega
    | ⟨1, _⟩ => show win3_1.index t (1 : Fin 2) * 64 + 1 * q.val = win3_4.index t (1 : Fin 2) * 64 + 1 * q.val; omega
  have hd : iblk3 V c 2 t (ix2 p (0 : Fin 1)) = V c main_v78 (ix2 (((cfg3.win 4).blk t).view.emb (ix2 p q) 0) (0 : Fin 1)) := by
    show V c main_v78 (((cfg3.win 2).blk t).view.emb (ix2 p (0 : Fin 1))) = _
    refine congrArg (V c main_v78) (funext fun a => Fin.ext ?_)
    match a with
    | ⟨0, _⟩ => show win3_2.index t (0 : Fin 2) * 5000 + 1 * p.val = win3_4.index t (0 : Fin 2) * 5000 + 1 * p.val; omega
    | ⟨1, _⟩ => show win3_2.index t (1 : Fin 2) * 1 + 1 * 0 = 0; omega
  have hb : iblk3 V c 3 t (ix2 (0 : Fin 1) q) = V c main_v77 (ix2 (0 : Fin 1) (((cfg3.win 4).blk t).view.emb (ix2 p q) 1)) := by
    show V c main_v77 (((cfg3.win 3).blk t).view.emb (ix2 (0 : Fin 1) q)) = _
    refine congrArg (V c main_v77) (funext fun a => Fin.ext ?_)
    match a with
    | ⟨0, _⟩ => show win3_3.index t (0 : Fin 2) * 1 + 1 * 0 = 0; omega
    | ⟨1, _⟩ => show win3_3.index t (1 : Fin 2) * 64 + 1 * q.val = win3_4.index t (1 : Fin 2) * 64 + 1 * q.val; omega
  rw [hagg, hh, hd, hb]

/-- An index of the result is in point `t`'s block iff each coordinate is in the block's range on its axis. -/
theorem mem_blk (t : Fin cfg3.N) (i : S100000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v79).slice (win3_4.rect t)).set ↔ _
  rw [View.set_slice_whole, Rect.mem_set_unit]
  exact Iff.rfl

/-- The 20 blocks cover the result: row `r` is in the block of point `r / 5000`. -/
theorem cover (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  obtain ⟨t, ht⟩ := index_onto ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 64 ≤ (i 1).val ∧ (i 1).val < win3_4.index t (1 : Fin 2) * 64 + 64; omega

/-- The array the launch leaves: the combine step of the arrays it finds. -/
theorem value (c : Dev nD) :
    (dat3 V c).arrAt 4 cfg3.N = Cert.Spec.combineRelu (V c main_v76) (V c main_v48) (V c main_v78) (V c main_v77) :=
  (dat3 V c).arrAt_eq_of_cover 4 _ (fun t _ => flushed_eq V c t) cover

end Cert.KernelIdeal.Region3

end
-- ==== Proof.Fold2.lean ====
/-
  The second layer, followed through the idealized kernel's boundaries.

  A short host stretch makes the zero bias row; a launch multiplies the previous layer's output by this layer's weight
  matrix; the host stretch after it gathers, scales and scatter-adds the messages exactly as the reference does, with the
  edge vectors and the degree factors computed once before the first launch and carried along untouched; a launch adds
  the self term and the bias and takes the positive part. At each boundary the live buffers are the reference's own stages of the
  same arguments (the reference computes the degree factors afresh in each layer: the same operations of the same edge
  list, so the same arrays).
-/
import proofs.«179287_j42434276884907_1_alg».proof.Proof.Gen.KernelIdeal.Frame
import proofs.«179287_j42434276884907_1_alg».proof.Proof.Gen.ReferenceIdeal.Read
import proofs.«179287_j42434276884907_1_alg».proof.Proof.LibDenseLayerLaws
import proofs.«179287_j42434276884907_1_alg».proof.Proof.Keep
import Idealize.ShloMosaic.Lib.StableHlo.Run
import proofs.«179287_j42434276884907_1_alg».proof.Proof.Fold1
import proofs.«179287_j42434276884907_1_alg».proof.Proof.RegionMM2
import proofs.«179287_j42434276884907_1_alg».proof.Proof.RegionComb3

set_option maxRecDepth 16384

noncomputable section

namespace Cert.KernelIdeal.Fold2

open Cert.KernelIdeal Cert.KernelIdeal.Gen
open Idealize.ShloMosaic Idealize.ShloMosaic.TcCoe Idealize.ShloMosaic.ValueIdx Idealize.SL.Sem Idealize.ShloMosaic.StableHlo
open Cert.KernelIdeal.Keep
open Cert.ReferenceIdeal.Read (val_main_v1 val_main_v3 val_main_v4 val_main_v11 val_main_v39 val_main_v40 val_main_v48 val_main_v49 val_main_v84 val_main_v93 val_main_v94 val_main_v129 val_main_v137 val_main_v149 val_main_v153)

variable (m : (ℓ : Loc nD τ sig) → Buf (Elt Ideal) ℓ) (ρ : Dev nD → PrngReg) (c : Dev nD)

open Cert.KernelIdeal.Fold1

/-! ## Before the feature transform -/

theorem b5_zero : W5 m ρ c (Proc.devRef .tc main_v47)
    = shapeCast S1x64 (broadcastInDim S64 ![] bcast_S_S64 (constant (F := Ideal) S_ .f32 0x00000000#32)) shapeCasts_S64_S1x64 := by
  show StableHlo.after hostOps2 (W4 m ρ c) (Proc.devRef .tc main_v47) = _
  after_results <;> rfl
theorem b5_in : W5 m ρ c (Proc.devRef .tc main_v45) = val_main_v48 (F := Ideal) (m ((c : Thread nD τ).loc main_arg0)) (m ((c : Thread nD τ).loc main_arg1)) (m ((c : Thread nD τ).loc main_arg3)) (m ((c : Thread nD τ).loc main_arg4)) :=
  (host2 m ρ c main_v45).trans (b4_out m ρ c)
theorem b5_w : W5 m ρ c (Proc.devRef .tc main_arg5) = (m ((c : Thread nD τ).loc main_arg5)) := (keep5 m ρ c main_arg5).trans (b1_arg5 m ρ c)

/-! ## After the feature transform: the previous output times this layer's weight matrix -/

theorem b6_h : W6 m ρ c (Proc.devRef .tc main_v48) = val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W6_arr m ρ c 3).trans ((Region2.value (V5 m ρ) c).trans ?_)
  show Cert.Spec.affine (W5 m ρ c (Proc.devRef .tc main_v45)) (W5 m ρ c (Proc.devRef .tc main_arg5)) (W5 m ρ c (Proc.devRef .tc main_v47)) = _
  rw [b5_in m ρ c, b5_w m ρ c, b5_zero m ρ c]
  exact (Cert.DenseLaws.affine_zero _ _ _ (fun q => Cert.DenseLaws.zeroRow_apply _ _ 0 q)).trans rfl

theorem b6_src : W6 m ρ c (Proc.devRef .tc main_v1) = val_main_v1 (F := Ideal) (m ((c : Thread nD τ).loc main_arg1)) := (keep6 m ρ c main_v1).trans (b1_src m ρ c)
theorem b6_dst : W6 m ρ c (Proc.devRef .tc main_v3) = val_main_v3 (F := Ideal) (m ((c : Thread nD τ).loc main_arg1)) := (keep6 m ρ c main_v3).trans (b1_dst m ρ c)
theorem b6_dinv : W6 m ρ c (Proc.devRef .tc main_v10) = val_main_v11 (F := Ideal) (m ((c : Thread nD τ).loc main_arg1)) := (keep6 m ρ c main_v10).trans (b1_dinv m ρ c)
theorem b6_dinv2 : W6 m ρ c (Proc.devRef .tc main_v11) = val_main_v40 (F := Ideal) (m ((c : Thread nD τ).loc main_arg1)) := (keep6 m ρ c main_v11).trans (b1_dinv2 m ρ c)
theorem b6_b : W6 m ρ c (Proc.devRef .tc main_arg6) = (m ((c : Thread nD τ).loc main_arg6)) := (keep6 m ρ c main_arg6).trans (b1_arg6 m ρ c)

/-! ## After the message passing -/

set_option maxHeartbeats 4000000 in
/-- The aggregated messages: the same gathers and scatter as the reference's, of equal operands. -/
theorem b7_agg : W7 m ρ c (Proc.devRef .tc main_v76) = val_main_v84 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps3 (W6 m ρ c) (Proc.devRef .tc main_v76) = _
  after_results_simp
  rw [b6_h m ρ c, b6_src m ρ c, b6_dst m ρ c, b6_dinv m ρ c]
  rfl
set_option maxHeartbeats 4000000 in
theorem b7_bias : W7 m ρ c (Proc.devRef .tc main_v77) = shapeCast S1x64 (m ((c : Thread nD τ).loc main_arg6)) shapeCasts_S64_S1x64 := by
  show StableHlo.after hostOps3 (W6 m ρ c) (Proc.devRef .tc main_v77) = _
  after_results_simp
  rw [b6_b m ρ c]
  rfl
set_option maxHeartbeats 4000000 in
theorem b7_col : W7 m ρ c (Proc.devRef .tc main_v78) = shapeCast S100000x1 (val_main_v40 (F := Ideal) (m ((c : Thread nD τ).loc main_arg1))) shapeCasts_S100000_S100000x1 := by
  show StableHlo.after hostOps3 (W6 m ρ c) (Proc.devRef .tc main_v78) = _
  after_results_simp
  rw [b6_dinv2 m ρ c]
  rfl
theorem b7_h : W7 m ρ c (Proc.devRef .tc main_v48) = val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (host3 m ρ c main_v48).trans (b6_h m ρ c)

/-! ## After the combine launch: this layer's output -/

theorem b8_out : W8 m ρ c (Proc.devRef .tc main_v79) = val_main_v93 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W8_arr m ρ c 4).trans ((Region3.value (V7 m ρ) c).trans ?_)
  show Cert.Spec.combineRelu (W7 m ρ c (Proc.devRef .tc main_v76)) (W7 m ρ c (Proc.devRef .tc main_v48)) (W7 m ρ c (Proc.devRef .tc main_v78)) (W7 m ρ c (Proc.devRef .tc main_v77)) = _
  rw [b7_agg m ρ c, b7_h m ρ c, b7_col m ρ c, b7_bias m ρ c]
  exact (Cert.DenseLaws.combineRelu_host _ _ _ _ _ _ Cert.ReferenceIdeal.Gen.bcast_S100000_S100000x1_0 Cert.ReferenceIdeal.Gen.bcast_S100000x1_S100000x64_0_1
    Cert.ReferenceIdeal.Gen.bcast_S64_S1x64_1 Cert.ReferenceIdeal.Gen.bcast_S1x64_S100000x64_0_1 Cert.ReferenceIdeal.Gen.bcast_S_S100000x64).trans rfl

end Cert.KernelIdeal.Fold2

end
-- ==== Proof.RegionMM4.lean ====
/-
  The value of the third feature transform: the launch that multiplies the node features, 5000 rows at a time, by the
  layer's weight matrix and adds a bias row.

  The grid has 20 points; point `t` reads rows `5000 t … 5000 t + 4999` of the features, the whole weight matrix and the
  whole bias row, and writes the same rows of the result. An entry `(p, q)` of a block is the sum over `k` of the
  block's `(p, k)` entry times the weight's `(k, q)` plus the bias row's `(0, q)`; since row `5000 t + p` of the result
  depends on row `5000 t + p` of the features only, and the 20 blocks of 5000 rows cover all 100000 rows, the array the
  launch leaves is the product with a bias row of the whole arrays.
-/
import proofs.«179287_j42434276884907_1_alg».proof.Proof.Gen.KernelIdeal.Frame
import proofs.«179287_j42434276884907_1_alg».proof.Proof.LibDenseLayer
import proofs.«179287_j42434276884907_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's contraction is the plain one: rows of the left operand against columns of the right. -/
theorem dot_plain : dot_S5000x64_S64x64_S5000x64_1_0_0_1_n_n = DotDims.plain 5000 64 64 := rfl

/-- What the body stores, at `(p, q)`: the sum over `k` of the feature block's `(p, k)` times the weight's `(k, q)`, plus the
    bias row's `(0, q)` (the roundings to bf16 are the identity on the extended reals). -/
theorem stored_apply (x0 : FVec Ideal S5000x64 .f32) (x1 : FVec Ideal S64x64 .f32) (x2 : FVec Ideal S1x64 .f32) (p : Fin 5000) (q : Fin 64) :
    k4_pay1 (F := Ideal) x0 x1 x2 (ix2 p q) = (∑ k : Fin 64, x0 (ix2 p k) * x1 (ix2 k q)) + x2 (ix2 (0 : Fin 1) q) := by
  unfold k4_pay1
  rw [addf_apply, shapeCast_self, shapeCast_self, broadcastTo_1b_ab_apply, dot_plain]
  exact congrArg (· + x2 (ix2 (0 : Fin 1) q))
    (PlainDot.matmul_zero_apply none (truncf .bf16 x0 bitsLt_bf16_f32) (truncf .bf16 x1 bitsLt_bf16_f32) p q)

/-- The index maps over the grid: the feature block and the result block move together along the rows; every other block
    index is zero. -/
theorem index_facts : ∀ t : Fin cfg4.N, win4_0.index t (0 : Fin 2) = win4_3.index t (0 : Fin 2)
    ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (1 : Fin 2) = 0 ∧ win4_3.index t (0 : Fin 2) ≤ 19 :=
  (by decide +kernel : ∀ t : Fin grid4.N, _)

/-- Every block of 5000 rows is some point's. -/
theorem index_onto : ∀ r : Fin 20, ∃ t : Fin cfg4.N, win4_3.index t = ![r.val, 0] :=
  (by decide +kernel : ∀ r : Fin 20, ∃ t : Fin grid4.N, win4_3.index t = ![r.val, 0])

/-- What point `t` writes back is block `t` of the product with a bias row of the arrays the launch finds. -/
theorem flushed_eq (c : Dev nD) (t : Fin cfg4.N) :
    (dat4 V c).flushed 3 t = ((cfg4.win 3).blk t).view.read (Elt Ideal)
      (Cert.Spec.affine (V c main_v79) (V c main_arg7) (V c main_v81)) := by
  show (cfg4.win 3).cut (grid4.coords t) ((dat4 V c).after 3 t) = _
  rw [after4_3]
  unfold out4_3
  rw [View.canon_unit_zero origin]
  simp only [View.ld_unit_zero (S := S5000x64) origin, View.ld_unit_zero (S := S64x64) origin, View.ld_unit_zero (S := S1x64) origin]
  obtain ⟨e00, e01, e10, e11, e20, e21, e31, -⟩ := index_facts t
  funext j
  obtain ⟨p, q, rfl⟩ : ∃ (p : Fin 5000) (q : Fin 64), j = ix2 p q := ⟨j 0, j 1, eq_ix2 j⟩
  refine (stored_apply (iblk4 V c 0 t) (iblk4 V c 1 t) (iblk4 V c 2 t) p q).trans ?_
  show _ = Cert.Spec.affineAt (V c main_v79) (V c main_arg7) (V c main_v81)
      (((cfg4.win 3).blk t).view.emb (ix2 p q) 0) (((cfg4.win 3).blk t).view.emb (ix2 p q) 1)
  unfold Cert.Spec.affineAt
  have hx : ∀ k : Fin 64, iblk4 V c 0 t (ix2 p k) = V c main_v79 (ix2 (((cfg4.win 3).blk t).view.emb (ix2 p q) 0) k) := fun k => by
    show V c main_v79 (((cfg4.win 0).blk t).view.emb (ix2 p k)) = _
    refine congrArg (V c main_v79) (funext fun a => Fin.ext ?_)
    match a with
    | ⟨0, _⟩ => show win4_0.index t (0 : Fin 2) * 5000 + 1 * p.val = win4_3.index t (0 : Fin 2) * 5000 + 1 * p.val; omega
    | ⟨1, _⟩ => show win4_0.index t (1 : Fin 2) * 64 + 1 * k.val = k.val; omega
  have hw : ∀ k : Fin 64, iblk4 V c 1 t (ix2 k q) = V c main_arg7 (ix2 k (((cfg4.win 3).blk t).view.emb (ix2 p q) 1)) := fun k => by
    show V c main_arg7 (((cfg4.win 1).blk t).view.emb (ix2 k q)) = _
    refine congrArg (V c main_arg7) (funext fun a => Fin.ext ?_)
    match a with
    | ⟨0, _⟩ => show win4_1.index t (0 : Fin 2) * 64 + 1 * k.val = k.val; omega
    | ⟨1, _⟩ => show win4_1.index t (1 : Fin 2) * 64 + 1 * q.val = win4_3.index t (1 : Fin 2) * 64 + 1 * q.val; omega
  have hb : iblk4 V c 2 t (ix2 (0 : Fin 1) q) = V c main_v81 (ix2 (0 : Fin 1) (((cfg4.win 3).blk t).view.emb (ix2 p q) 1)) := by
    show V c main_v81 (((cfg4.win 2).blk t).view.emb (ix2 (0 : Fin 1) q)) = _
    refine congrArg (V c main_v81) (funext fun a => Fin.ext ?_)
    match a with
    | ⟨0, _⟩ => show win4_2.index t (0 : Fin 2) * 1 + 1 * 0 = 0; omega
    | ⟨1, _⟩ => show win4_2.index t (1 : Fin 2) * 64 + 1 * q.val = win4_3.index t (1 : Fin 2) * 64 + 1 * q.val; omega
  rw [hb]
  exact congrArg (· + _) (Finset.sum_congr rfl fun k _ => by rw [hx k, hw k])

/-- An index of the result is in point `t`'s block iff each coordinate is in the block's range on its axis. -/
theorem mem_blk (t : Fin cfg4.N) (i : S100000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v82).slice (win4_3.rect t)).set ↔ _
  rw [View.set_slice_whole, Rect.mem_set_unit]
  exact Iff.rfl

/-- The 20 blocks cover the result: row `r` is in the block of point `r / 5000`. -/
theorem cover (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  obtain ⟨t, ht⟩ := index_onto ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 64 ≤ (i 1).val ∧ (i 1).val < win4_3.index t (1 : Fin 2) * 64 + 64; omega

/-- The array the launch leaves: the product with a bias row of the arrays it finds. -/
theorem value (c : Dev nD) :
    (dat4 V c).arrAt 3 cfg4.N = Cert.Spec.affine (V c main_v79) (V c main_arg7) (V c main_v81) :=
  (dat4 V c).arrAt_eq_of_cover 3 _ (fun t _ => flushed_eq V c t) cover

end Cert.KernelIdeal.Region4

end
-- ==== Proof.RegionComb5.lean ====
/-
  The value of the third layer's combine step: the launch that adds to the aggregated messages the node's own
  transformed features scaled by its normalisation factor, and the bias.

  The grid has 20 points; point `t` reads rows `5000 t … 5000 t + 4999` of the aggregate, of the features and of the
  factor column, and the whole bias row, and writes the same rows of the result. The body is pointwise: entry `(p, q)` of
  a block is `(agg (p, q) + h (p, q) · d (p, 0)) + b (0, q)`. Row `5000 t + p` of the result depends on
  row `5000 t + p` of the operands only, and the 20 blocks of 5000 rows cover all 100000 rows, so the array the launch
  leaves is that function of the whole arrays.
-/
import proofs.«179287_j42434276884907_1_alg».proof.Proof.Gen.KernelIdeal.Frame
import proofs.«179287_j42434276884907_1_alg».proof.Proof.LibDenseLayer
import proofs.«179287_j42434276884907_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region5

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- What the body stores, at `(p, q)`, from the feature block `h`, the factor column `d`, the aggregate block `agg` and
    the bias row `b`. -/
theorem stored_apply (h : FVec Ideal S5000x64 .f32) (d : FVec Ideal S5000x1 .f32) (agg : FVec Ideal S5000x64 .f32)
    (b : FVec Ideal S1x64 .f32) (p : Fin 5000) (q : Fin 64) :
    k5_pay1 (F := Ideal) h d agg b (ix2 p q)
      = (agg (ix2 p q) + h (ix2 p q) * d (ix2 p (0 : Fin 1))) + b (ix2 (0 : Fin 1) q) := by
  unfold k5_pay1
  rw [addf_apply, addf_apply, mulf_apply, shapeCast_self, shapeCast_self, shapeCast_self, shapeCast_self,
    broadcastTo_1b_ab_apply, Keepdims.broadcastTo_a1_ab_apply]

/-- The index maps over the grid: the aggregate, feature, factor and result blocks move together along the rows; every
    other block index is zero. -/
theorem index_facts : ∀ t : Fin cfg5.N, win5_0.index t (0 : Fin 2) = win5_4.index t (0 : Fin 2)
    ∧ win5_0.index t (1 : Fin 2) = 0
    ∧ win5_1.index t (0 : Fin 2) = win5_4.index t (0 : Fin 2) ∧ win5_1.index t (1 : Fin 2) = 0
    ∧ win5_2.index t (0 : Fin 2) = win5_4.index t (0 : Fin 2) ∧ win5_2.index t (1 : Fin 2) = 0
    ∧ win5_3.index t (0 : Fin 2) = 0 ∧ win5_3.index t (1 : Fin 2) = 0
    ∧ win5_4.index t (1 : Fin 2) = 0 ∧ win5_4.index t (0 : Fin 2) ≤ 19 :=
  (by decide +kernel : ∀ t : Fin grid5.N, _)

/-- Every block of 5000 rows is some point's. -/
theorem index_onto : ∀ r : Fin 20, ∃ t : Fin cfg5.N, win5_4.index t = ![r.val, 0] :=
  (by decide +kernel : ∀ r : Fin 20, ∃ t : Fin grid5.N, win5_4.index t = ![r.val, 0])

/-- What point `t` writes back is block `t` of the combine step of the arrays the launch finds. -/
theorem flushed_eq (c : Dev nD) (t : Fin cfg5.N) :
    (dat5 V c).flushed 4 t = ((cfg5.win 4).blk t).view.read (Elt Ideal)
      (Cert.Spec.combine (V c main_v110) (V c main_v82) (V c main_v112) (V c main_v111)) := by
  show (cfg5.win 4).cut (grid5.coords t) ((dat5 V c).after 4 t) = _
  rw [after5_4]
  unfold out5_4
  rw [View.canon_unit_zero origin]
  simp only [View.ld_unit_zero (S := S5000x64) origin, View.ld_unit_zero (S := S5000x1) origin, View.ld_unit_zero (S := S1x64) origin]
  obtain ⟨e00, e01, e10, e11, e20, e21, e30, e31, e41, -⟩ := index_facts t
  funext j
  obtain ⟨p, q, rfl⟩ : ∃ (p : Fin 5000) (q : Fin 64), j = ix2 p q := ⟨j 0, j 1, eq_ix2 j⟩
  refine (stored_apply (iblk5 V c 1 t) (iblk5 V c 2 t) (iblk5 V c 0 t) (iblk5 V c 3 t) p q).trans ?_
  show _ = Cert.Spec.combineAt (V c main_v110) (V c main_v82) (V c main_v112) (V c main_v111)
      (((cfg5.win 4).blk t).view.emb (ix2 p q) 0) (((cfg5.win 4).blk t).view.emb (ix2 p q) 1)
  unfold Cert.Spec.combineAt
  have hagg : iblk5 V c 0 t (ix2 p q) = V c main_v110 (ix2 (((cfg5.win 4).blk t).view.emb (ix2 p q) 0) (((cfg5.win 4).blk t).view.emb (ix2 p q) 1)) := by
    show V c main_v110 (((cfg5.win 0).blk t).view.emb (ix2 p q)) = _
    refine congrArg (V c main_v110) (funext fun a => Fin.ext ?_)
    match a with
    | ⟨0, _⟩ => show win5_0.index t (0 : Fin 2) * 5000 + 1 * p.val = win5_4.index t (0 : Fin 2) * 5000 + 1 * p.val; omega
    | ⟨1, _⟩ => show win5_0.index t (1 : Fin 2) * 64 + 1 * q.val = win5_4.index t (1 : Fin 2) * 64 + 1 * q.val; omega
  have hh : iblk5 V c 1 t (ix2 p q) = V c main_v82 (ix2 (((cfg5.win 4).blk t).view.emb (ix2 p q) 0) (((cfg5.win 4).blk t).view.emb (ix2 p q) 1)) := by
    show V c main_v82 (((cfg5.win 1).blk t).view.emb (ix2 p q)) = _
    refine congrArg (V c main_v82) (funext fun a => Fin.ext ?_)
    match a with
    | ⟨0, _⟩ => show win5_1.index t (0 : Fin 2) * 5000 + 1 * p.val = win5_4.index t (0 : Fin 2) * 5000 + 1 * p.val; omega
    | ⟨1, _⟩ => show win5_1.index t (1 : Fin 2) * 64 + 1 * q.val = win5_4.index t (1 : Fin 2) * 64 + 1 * q.val; omega
  have hd : iblk5 V c 2 t (ix2 p (0 : Fin 1)) = V c main_v112 (ix2 (((cfg5.win 4).blk t).view.emb (ix2 p q) 0) (0 : Fin 1)) := by
    show V c main_v112 (((cfg5.win 2).blk t).view.emb (ix2 p (0 : Fin 1))) = _
    refine congrArg (V c main_v112) (funext fun a => Fin.ext ?_)
    match a with
    | ⟨0, _⟩ => show win5_2.index t (0 : Fin 2) * 5000 + 1 * p.val = win5_4.index t (0 : Fin 2) * 5000 + 1 * p.val; omega
    | ⟨1, _⟩ => show win5_2.index t (1 : Fin 2) * 1 + 1 * 0 = 0; omega
  have hb : iblk5 V c 3 t (ix2 (0 : Fin 1) q) = V c main_v111 (ix2 (0 : Fin 1) (((cfg5.win 4).blk t).view.emb (ix2 p q) 1)) := by
    show V c main_v111 (((cfg5.win 3).blk t).view.emb (ix2 (0 : Fin 1) q)) = _
    refine congrArg (V c main_v111) (funext fun a => Fin.ext ?_)
    match a with
    | ⟨0, _⟩ => show win5_3.index t (0 : Fin 2) * 1 + 1 * 0 = 0; omega
    | ⟨1, _⟩ => show win5_3.index t (1 : Fin 2) * 64 + 1 * q.val = win5_4.index t (1 : Fin 2) * 64 + 1 * q.val; omega
  rw [hagg, hh, hd, hb]

/-- An index of the result is in point `t`'s block iff each coordinate is in the block's range on its axis. -/
theorem mem_blk (t : Fin cfg5.N) (i : S100000x64.Idx) :
    i ∈ ((cfg5.win 4).blk t).view.set ↔ ∀ a : Fin 2, win5_4.index t a * S5000x64.size a ≤ (i a).val ∧ (i a).val < win5_4.index t a * S5000x64.size a + S5000x64.size a := by
  show i ∈ ((View.whole main_v113).slice (win5_4.rect t)).set ↔ _
  rw [View.set_slice_whole, Rect.mem_set_unit]
  exact Iff.rfl

/-- The 20 blocks cover the result: row `r` is in the block of point `r / 5000`. -/
theorem cover (i : S100000x64.Idx) :
    ∃ t : Fin cfg5.N, (cfg5.win 4).flush t = true ∧ i ∈ ((cfg5.win 4).blk t).view.set := by
  have hi0 : (i 0).val < 100000 := (i 0).isLt
  have hi1 : (i 1).val < 64 := (i 1).isLt
  obtain ⟨t, ht⟩ := index_onto ⟨(i 0).val / 5000, by omega⟩
  have q0 : win5_4.index t (0 : Fin 2) = (i 0).val / 5000 := congrFun ht 0
  have q1 : win5_4.index t (1 : Fin 2) = 0 := congrFun ht 1
  refine ⟨t, flush5_4 t, ?_⟩
  rw [mem_blk]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 64 ≤ (i 1).val ∧ (i 1).val < win5_4.index t (1 : Fin 2) * 64 + 64; omega

/-- The array the launch leaves: the combine step of the arrays it finds. -/
theorem value (c : Dev nD) :
    (dat5 V c).arrAt 4 cfg5.N = Cert.Spec.combine (V c main_v110) (V c main_v82) (V c main_v112) (V c main_v111) :=
  (dat5 V c).arrAt_eq_of_cover 4 _ (fun t _ => flushed_eq V c t) cover

end Cert.KernelIdeal.Region5

end
-- ==== Proof.Fold3.lean ====
/-
  The third layer, followed through the idealized kernel's boundaries.

  A short host stretch makes the zero bias row; a launch multiplies the previous layer's output by this layer's weight
  matrix; the host stretch after it gathers, scales and scatter-adds the messages exactly as the reference does, with the
  edge vectors and the degree factors computed once before the first launch and carried along untouched; a launch adds
  the self term and the bias. At each boundary the live buffers are the reference's own stages of the
  same arguments (the reference computes the degree factors afresh in each layer: the same operations of the same edge
  list, so the same arrays).
-/
import proofs.«179287_j42434276884907_1_alg».proof.Proof.Gen.KernelIdeal.Frame
import proofs.«179287_j42434276884907_1_alg».proof.Proof.Gen.ReferenceIdeal.Read
import proofs.«179287_j42434276884907_1_alg».proof.Proof.LibDenseLayerLaws
import proofs.«179287_j42434276884907_1_alg».proof.Proof.Keep
import Idealize.ShloMosaic.Lib.StableHlo.Run
import proofs.«179287_j42434276884907_1_alg».proof.Proof.Fold2
import proofs.«179287_j42434276884907_1_alg».proof.Proof.RegionMM4
import proofs.«179287_j42434276884907_1_alg».proof.Proof.RegionComb5

set_option maxRecDepth 16384

noncomputable section

namespace Cert.KernelIdeal.Fold3

open Cert.KernelIdeal Cert.KernelIdeal.Gen
open Idealize.ShloMosaic Idealize.ShloMosaic.TcCoe Idealize.ShloMosaic.ValueIdx Idealize.SL.Sem Idealize.ShloMosaic.StableHlo
open Cert.KernelIdeal.Keep
open Cert.ReferenceIdeal.Read (val_main_v1 val_main_v3 val_main_v4 val_main_v11 val_main_v39 val_main_v40 val_main_v48 val_main_v49 val_main_v84 val_main_v93 val_main_v94 val_main_v129 val_main_v137 val_main_v149 val_main_v153)

variable (m : (ℓ : Loc nD τ sig) → Buf (Elt Ideal) ℓ) (ρ : Dev nD → PrngReg) (c : Dev nD)

open Cert.KernelIdeal.Fold2 Cert.KernelIdeal.Fold1

/-! ## Before the feature transform -/

theorem b9_zero : W9 m ρ c (Proc.devRef .tc main_v81)
    = shapeCast S1x64 (broadcastInDim S64 ![] bcast_S_S64 (constant (F := Ideal) S_ .f32 0x00000000#32)) shapeCasts_S64_S1x64 := by
  show StableHlo.after hostOps4 (W8 m ρ c) (Proc.devRef .tc main_v81) = _
  after_results <;> rfl
theorem b9_in : W9 m ρ c (Proc.devRef .tc main_v79) = val_main_v93 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (host4 m ρ c main_v79).trans (b8_out m ρ c)
theorem b9_w : W9 m ρ c (Proc.devRef .tc main_arg7) = (m ((c : Thread nD τ).loc main_arg7)) := (keep9 m ρ c main_arg7).trans (b1_arg7 m ρ c)

/-! ## After the feature transform: the previous output times this layer's weight matrix -/

theorem b10_h : W10 m ρ c (Proc.devRef .tc main_v82) = val_main_v94 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 3).trans ((Region4.value (V9 m ρ) c).trans ?_)
  show Cert.Spec.affine (W9 m ρ c (Proc.devRef .tc main_v79)) (W9 m ρ c (Proc.devRef .tc main_arg7)) (W9 m ρ c (Proc.devRef .tc main_v81)) = _
  rw [b9_in m ρ c, b9_w m ρ c, b9_zero m ρ c]
  exact (Cert.DenseLaws.affine_zero _ _ _ (fun q => Cert.DenseLaws.zeroRow_apply _ _ 0 q)).trans rfl

theorem b10_src : W10 m ρ c (Proc.devRef .tc main_v1) = val_main_v1 (F := Ideal) (m ((c : Thread nD τ).loc main_arg1)) := (keep10 m ρ c main_v1).trans (b1_src m ρ c)
theorem b10_dst : W10 m ρ c (Proc.devRef .tc main_v3) = val_main_v3 (F := Ideal) (m ((c : Thread nD τ).loc main_arg1)) := (keep10 m ρ c main_v3).trans (b1_dst m ρ c)
theorem b10_dinv : W10 m ρ c (Proc.devRef .tc main_v10) = val_main_v11 (F := Ideal) (m ((c : Thread nD τ).loc main_arg1)) := (keep10 m ρ c main_v10).trans (b1_dinv m ρ c)
theorem b10_dinv2 : W10 m ρ c (Proc.devRef .tc main_v11) = val_main_v40 (F := Ideal) (m ((c : Thread nD τ).loc main_arg1)) := (keep10 m ρ c main_v11).trans (b1_dinv2 m ρ c)
theorem b10_b : W10 m ρ c (Proc.devRef .tc main_arg8) = (m ((c : Thread nD τ).loc main_arg8)) := (keep10 m ρ c main_arg8).trans (b1_arg8 m ρ c)

/-! ## After the message passing -/

set_option maxHeartbeats 4000000 in
/-- The aggregated messages: the same gathers and scatter as the reference's, of equal operands. -/
theorem b11_agg : W11 m ρ c (Proc.devRef .tc main_v110) = val_main_v129 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps5 (W10 m ρ c) (Proc.devRef .tc main_v110) = _
  after_results_simp
  rw [b10_h m ρ c, b10_src m ρ c, b10_dst m ρ c, b10_dinv m ρ c]
  rfl
set_option maxHeartbeats 4000000 in
theorem b11_bias : W11 m ρ c (Proc.devRef .tc main_v111) = shapeCast S1x64 (m ((c : Thread nD τ).loc main_arg8)) shapeCasts_S64_S1x64 := by
  show StableHlo.after hostOps5 (W10 m ρ c) (Proc.devRef .tc main_v111) = _
  after_results_simp
  rw [b10_b m ρ c]
  rfl
set_option maxHeartbeats 4000000 in
theorem b11_col : W11 m ρ c (Proc.devRef .tc main_v112) = shapeCast S100000x1 (val_main_v40 (F := Ideal) (m ((c : Thread nD τ).loc main_arg1))) shapeCasts_S100000_S100000x1 := by
  show StableHlo.after hostOps5 (W10 m ρ c) (Proc.devRef .tc main_v112) = _
  after_results_simp
  rw [b10_dinv2 m ρ c]
  rfl
theorem b11_h : W11 m ρ c (Proc.devRef .tc main_v82) = val_main_v94 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  (host5 m ρ c main_v82).trans (b10_h m ρ c)

/-! ## After the combine launch: this layer's output -/

theorem b12_out : W12 m ρ c (Proc.devRef .tc main_v113) = val_main_v137 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W12_arr m ρ c 4).trans ((Region5.value (V11 m ρ) c).trans ?_)
  show Cert.Spec.combine (W11 m ρ c (Proc.devRef .tc main_v110)) (W11 m ρ c (Proc.devRef .tc main_v82)) (W11 m ρ c (Proc.devRef .tc main_v112)) (W11 m ρ c (Proc.devRef .tc main_v111)) = _
  rw [b11_agg m ρ c, b11_h m ρ c, b11_col m ρ c, b11_bias m ρ c]
  exact (Cert.DenseLaws.combine_host _ _ _ _ _ _ Cert.ReferenceIdeal.Gen.bcast_S100000_S100000x1_0 Cert.ReferenceIdeal.Gen.bcast_S100000x1_S100000x64_0_1
    Cert.ReferenceIdeal.Gen.bcast_S64_S1x64_1 Cert.ReferenceIdeal.Gen.bcast_S1x64_S100000x64_0_1).trans rfl

end Cert.KernelIdeal.Fold3

end
-- ==== Proof.RegionMM6.lean ====
/-
  The value of the classifier: the launch that multiplies the 256 pooled graph features by the classifier's weight
  matrix and adds its bias row.

  The grid has one point, which reads the whole [256, 64] pooled array, the whole [64, 45] weight matrix and the whole
  [1, 45] bias row, and writes the whole [256, 45] result. An entry `(p, q)` is the sum over `k` of the pooled `(p, k)`
  entry times the weight's `(k, q)` plus the bias row's `(0, q)`: the product with a bias row of the whole arrays.
-/
import proofs.«179287_j42434276884907_1_alg».proof.Proof.Gen.KernelIdeal.Frame
import proofs.«179287_j42434276884907_1_alg».proof.Proof.LibDenseLayer
import proofs.«179287_j42434276884907_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region6

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The body's contraction is the plain one: rows of the left operand against columns of the right. -/
theorem dot_plain : dot_S256x64_S64x45_S256x45_1_0_0_1_n_n = DotDims.plain 256 64 45 := rfl

/-- What the body stores, at `(p, q)`: the sum over `k` of the pooled `(p, k)` entry times the weight's `(k, q)`, plus the
    bias row's `(0, q)` (the roundings to bf16 are the identity on the extended reals). -/
theorem stored_apply (x0 : FVec Ideal S256x64 .f32) (x1 : FVec Ideal S64x45 .f32) (x2 : FVec Ideal S1x45 .f32) (p : Fin 256) (q : Fin 45) :
    k6_pay1 (F := Ideal) x0 x1 x2 (ix2 p q) = (∑ k : Fin 64, x0 (ix2 p k) * x1 (ix2 k q)) + x2 (ix2 (0 : Fin 1) q) := by
  unfold k6_pay1
  rw [addf_apply, shapeCast_self, shapeCast_self, broadcastTo_1b_ab_apply, dot_plain]
  exact congrArg (· + x2 (ix2 (0 : Fin 1) q))
    (PlainDot.matmul_zero_apply none (truncf .bf16 x0 bitsLt_bf16_f32) (truncf .bf16 x1 bitsLt_bf16_f32) p q)

/-- The index maps at the one grid point: every block index is zero. -/
theorem index_facts : ∀ t : Fin cfg6.N, win6_0.index t (0 : Fin 2) = win6_3.index t (0 : Fin 2)
    ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (1 : Fin 2) = 0 ∧ win6_3.index t (0 : Fin 2) ≤ 0 :=
  (by decide +kernel : ∀ t : Fin grid6.N, _)

/-- The one block is the one point's. -/
theorem index_onto : ∀ r : Fin 1, ∃ t : Fin cfg6.N, win6_3.index t = ![r.val, 0] :=
  (by decide +kernel : ∀ r : Fin 1, ∃ t : Fin grid6.N, win6_3.index t = ![r.val, 0])

/-- What point `t` writes back is block `t` of the product with a bias row of the arrays the launch finds. -/
theorem flushed_eq (c : Dev nD) (t : Fin cfg6.N) :
    (dat6 V c).flushed 3 t = ((cfg6.win 3).blk t).view.read (Elt Ideal)
      (Cert.Spec.affine (V c main_v125) (V c main_arg9) (V c main_v126)) := by
  show (cfg6.win 3).cut (grid6.coords t) ((dat6 V c).after 3 t) = _
  rw [after6_3]
  unfold out6_3
  rw [View.canon_unit_zero origin]
  simp only [View.ld_unit_zero (S := S256x64) origin, View.ld_unit_zero (S := S64x45) origin, View.ld_unit_zero (S := S1x45) origin]
  obtain ⟨e00, e01, e10, e11, e20, e21, e31, -⟩ := index_facts t
  funext j
  obtain ⟨p, q, rfl⟩ : ∃ (p : Fin 256) (q : Fin 45), j = ix2 p q := ⟨j 0, j 1, eq_ix2 j⟩
  refine (stored_apply (iblk6 V c 0 t) (iblk6 V c 1 t) (iblk6 V c 2 t) p q).trans ?_
  show _ = Cert.Spec.affineAt (V c main_v125) (V c main_arg9) (V c main_v126)
      (((cfg6.win 3).blk t).view.emb (ix2 p q) 0) (((cfg6.win 3).blk t).view.emb (ix2 p q) 1)
  unfold Cert.Spec.affineAt
  have hx : ∀ k : Fin 64, iblk6 V c 0 t (ix2 p k) = V c main_v125 (ix2 (((cfg6.win 3).blk t).view.emb (ix2 p q) 0) k) := fun k => by
    show V c main_v125 (((cfg6.win 0).blk t).view.emb (ix2 p k)) = _
    refine congrArg (V c main_v125) (funext fun a => Fin.ext ?_)
    match a with
    | ⟨0, _⟩ => show win6_0.index t (0 : Fin 2) * 256 + 1 * p.val = win6_3.index t (0 : Fin 2) * 256 + 1 * p.val; omega
    | ⟨1, _⟩ => show win6_0.index t (1 : Fin 2) * 64 + 1 * k.val = k.val; omega
  have hw : ∀ k : Fin 64, iblk6 V c 1 t (ix2 k q) = V c main_arg9 (ix2 k (((cfg6.win 3).blk t).view.emb (ix2 p q) 1)) := fun k => by
    show V c main_arg9 (((cfg6.win 1).blk t).view.emb (ix2 k q)) = _
    refine congrArg (V c main_arg9) (funext fun a => Fin.ext ?_)
    match a with
    | ⟨0, _⟩ => show win6_1.index t (0 : Fin 2) * 64 + 1 * k.val = k.val; omega
    | ⟨1, _⟩ => show win6_1.index t (1 : Fin 2) * 45 + 1 * q.val = win6_3.index t (1 : Fin 2) * 45 + 1 * q.val; omega
  have hb : iblk6 V c 2 t (ix2 (0 : Fin 1) q) = V c main_v126 (ix2 (0 : Fin 1) (((cfg6.win 3).blk t).view.emb (ix2 p q) 1)) := by
    show V c main_v126 (((cfg6.win 2).blk t).view.emb (ix2 (0 : Fin 1) q)) = _
    refine congrArg (V c main_v126) (funext fun a => Fin.ext ?_)
    match a with
    | ⟨0, _⟩ => show win6_2.index t (0 : Fin 2) * 1 + 1 * 0 = 0; omega
    | ⟨1, _⟩ => show win6_2.index t (1 : Fin 2) * 45 + 1 * q.val = win6_3.index t (1 : Fin 2) * 45 + 1 * q.val; omega
  rw [hb]
  exact congrArg (· + _) (Finset.sum_congr rfl fun k _ => by rw [hx k, hw k])

/-- An index of the result is in point `t`'s block iff each coordinate is in the block's range on its axis. -/
theorem mem_blk (t : Fin cfg6.N) (i : S256x45.Idx) :
    i ∈ ((cfg6.win 3).blk t).view.set ↔ ∀ a : Fin 2, win6_3.index t a * S256x45.size a ≤ (i a).val ∧ (i a).val < win6_3.index t a * S256x45.size a + S256x45.size a := by
  show i ∈ ((View.whole main_v127).slice (win6_3.rect t)).set ↔ _
  rw [View.set_slice_whole, Rect.mem_set_unit]
  exact Iff.rfl

/-- The one block covers the result. -/
theorem cover (i : S256x45.Idx) :
    ∃ t : Fin cfg6.N, (cfg6.win 3).flush t = true ∧ i ∈ ((cfg6.win 3).blk t).view.set := by
  have hi0 : (i 0).val < 256 := (i 0).isLt
  have hi1 : (i 1).val < 45 := (i 1).isLt
  obtain ⟨t, ht⟩ := index_onto ⟨(i 0).val / 256, by omega⟩
  have q0 : win6_3.index t (0 : Fin 2) = (i 0).val / 256 := congrFun ht 0
  have q1 : win6_3.index t (1 : Fin 2) = 0 := congrFun ht 1
  refine ⟨t, flush6_3 t, ?_⟩
  rw [mem_blk]
  intro a
  match a with
  | ⟨0, _⟩ => show win6_3.index t (0 : Fin 2) * 256 ≤ (i 0).val ∧ (i 0).val < win6_3.index t (0 : Fin 2) * 256 + 256; omega
  | ⟨1, _⟩ => show win6_3.index t (1 : Fin 2) * 45 ≤ (i 1).val ∧ (i 1).val < win6_3.index t (1 : Fin 2) * 45 + 45; omega

/-- The array the launch leaves: the product with a bias row of the arrays it finds. -/
theorem value (c : Dev nD) :
    (dat6 V c).arrAt 3 cfg6.N = Cert.Spec.affine (V c main_v125) (V c main_arg9) (V c main_v126) :=
  (dat6 V c).arrAt_eq_of_cover 3 _ (fun t _ => flushed_eq V c t) cover

end Cert.KernelIdeal.Region6

end
-- ==== Proof.Fold4.lean ====
/-
  The pooling and the classifier, followed through the idealized kernel's last two boundaries.

  The last host stretch sums the third layer's output over the nodes of each graph, counts the nodes of each graph,
  and divides the sums by the counts (at least one) — the very operations the reference applies, of an equal operand and
  the same graph assignment. The last launch multiplies the 256 pooled rows by the classifier's weight matrix and adds
  its bias, which is the reference's product plus the bias broadcast over the rows.
-/
import proofs.«179287_j42434276884907_1_alg».proof.Proof.Gen.KernelIdeal.Frame
import proofs.«179287_j42434276884907_1_alg».proof.Proof.Gen.ReferenceIdeal.Read
import proofs.«179287_j42434276884907_1_alg».proof.Proof.LibDenseLayerLaws
import proofs.«179287_j42434276884907_1_alg».proof.Proof.Keep
import Idealize.ShloMosaic.Lib.StableHlo.Run
import proofs.«179287_j42434276884907_1_alg».proof.Proof.Fold3
import proofs.«179287_j42434276884907_1_alg».proof.Proof.RegionMM6

set_option maxRecDepth 16384

noncomputable section

namespace Cert.KernelIdeal.Fold4

open Cert.KernelIdeal Cert.KernelIdeal.Gen
open Idealize.ShloMosaic Idealize.ShloMosaic.TcCoe Idealize.ShloMosaic.ValueIdx Idealize.SL.Sem Idealize.ShloMosaic.StableHlo
open Cert.KernelIdeal.Keep
open Cert.ReferenceIdeal.Read (val_main_v1 val_main_v3 val_main_v4 val_main_v11 val_main_v39 val_main_v40 val_main_v48 val_main_v49 val_main_v84 val_main_v93 val_main_v94 val_main_v129 val_main_v137 val_main_v149 val_main_v153)

variable (m : (ℓ : Loc nD τ sig) → Buf (Elt Ideal) ℓ) (ρ : Dev nD → PrngReg) (c : Dev nD)

open Cert.KernelIdeal.Fold3 Cert.KernelIdeal.Fold1

/-! ## After the pooling -/

theorem b12_batch : W12 m ρ c (Proc.devRef .tc main_arg2) = (m ((c : Thread nD τ).loc main_arg2)) := (keep12 m ρ c main_arg2).trans (b1_arg2 m ρ c)
theorem b12_bl : W12 m ρ c (Proc.devRef .tc main_arg10) = (m ((c : Thread nD τ).loc main_arg10)) := (keep12 m ρ c main_arg10).trans (b1_arg10 m ρ c)

set_option maxHeartbeats 4000000 in
/-- The mean of the node features over each graph: the same scatter-adds and division as the reference's, of equal operands. -/
theorem b13_pooled : W13 m ρ c (Proc.devRef .tc main_v125) = val_main_v149 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps6 (W12 m ρ c) (Proc.devRef .tc main_v125) = _
  after_results_simp
  rw [b12_out m ρ c, b12_batch m ρ c]
  rfl
set_option maxHeartbeats 4000000 in
theorem b13_bias : W13 m ρ c (Proc.devRef .tc main_v126) = shapeCast S1x45 (m ((c : Thread nD τ).loc main_arg10)) shapeCasts_S45_S1x45 := by
  show StableHlo.after hostOps6 (W12 m ρ c) (Proc.devRef .tc main_v126) = _
  after_results_simp
  rw [b12_bl m ρ c]
  rfl
theorem b13_w : W13 m ρ c (Proc.devRef .tc main_arg9) = (m ((c : Thread nD τ).loc main_arg9)) := (keep13 m ρ c main_arg9).trans (b1_arg9 m ρ c)

/-! ## After the last launch: the program's result -/

/-- The idealized kernel's result buffer holds the reference's result stage of the launch contents of the arguments. -/
theorem b14_out : W14 m ρ c (Proc.devRef .tc main_v127) = val_main_v153 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W14_arr m ρ c 3).trans ((Region6.value (V13 m ρ) c).trans ?_)
  show Cert.Spec.affine (W13 m ρ c (Proc.devRef .tc main_v125)) (W13 m ρ c (Proc.devRef .tc main_arg9)) (W13 m ρ c (Proc.devRef .tc main_v126)) = _
  rw [b13_pooled m ρ c, b13_w m ρ c, b13_bias m ρ c]
  exact (Cert.DenseLaws.affine_row _ _ _ _ Cert.ReferenceIdeal.Gen.bcast_S45_S1x45_1 Cert.ReferenceIdeal.Gen.bcast_S1x45_S256x45_0_1).trans rfl

end Cert.KernelIdeal.Fold4

end
-- ==== Proof.lean ====
/-
  A three-layer graph convolution network with mean pooling and a linear classifier: the tiled kernel against its
  reference, on the extended reals.

  Both programs compute, from the edge list, the inverse square roots of the node degrees; in each layer they multiply
  the node features by a weight matrix, gather the products at the edges' sources, scale them by the two ends' degree
  factors, sum them into the edges' destinations, add the node's own product times its squared factor and a bias, and
  (in the first two layers) take the positive part; then they average the node features over each graph and apply the
  classifier. The kernel does the matrix products and the "add self term and bias" steps in launches tiled over blocks
  of 5000 nodes, and everything indexed by the edge list on the host with the same operations as the reference. A row
  of a product, and a row of the combine step, depends on the same row of the operands only, so the tiles assemble to the
  whole-array functions (LibDenseLayer.lean; one module per launch); those are the host's spellings of the same steps
  (LibDenseLayerLaws.lean); and the host stretches between the launches are the reference's own operations of equal operands. So,
  boundary by boundary, every live buffer of the kernel is a stage of the reference (Fold1–Fold4), and the result buffer
  is the reference's result. No law used needs finiteness: sums are re-tiled but never re-associated, and nothing is
  cancelled or distributed.

  The ideal pass rewrote no operation, so the idealized kernel is the kernel's own text read at the extended reals.
-/
import proofs.«179287_j42434276884907_1_alg».proof.Defs
import proofs.«179287_j42434276884907_1_alg».proof.Proof.Gen.Kernel
import proofs.«179287_j42434276884907_1_alg».proof.Proof.Gen.Kernel.Frame
import proofs.«179287_j42434276884907_1_alg».proof.Proof.Gen.KernelIdeal
import proofs.«179287_j42434276884907_1_alg».proof.Proof.Gen.KernelIdeal.Frame
import proofs.«179287_j42434276884907_1_alg».proof.Proof.Gen.ReferenceIdeal
import proofs.«179287_j42434276884907_1_alg».proof.Proof.Gen.Pre_finite_inputs
import proofs.«179287_j42434276884907_1_alg».proof.Proof.Gen.ReferenceIdeal.Read
import proofs.«179287_j42434276884907_1_alg».proof.Proof.KernelRun
import proofs.«179287_j42434276884907_1_alg».proof.Proof.Fold4
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no launch: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result buffer at the reference's result stage of the (agreeing) argument arrays. -/
theorem algebraic : Cert.algebraic_KernelIdeal_ReferenceIdeal := by
  intro m ρ m' ρ' _ hagree
  refine ⟨fun c => Cert.ReferenceIdeal.Read.val_main_v153 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Fold4.b14_out m ρ c), (h c).2⟩)
      (Cert.KernelIdeal.ResultRun.run_result m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.Read.val_main_v153_eq, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
